-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x16 : Shape := ⟨2, ![128, 16]⟩
abbrev S16 : Shape := ⟨1, ![16]⟩
abbrev S16x64 : Shape := ⟨2, ![16, 64]⟩
abbrev S64 : Shape := ⟨1, ![64]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S16x64 .f32) (main_arg5 : FVec F S64 .f32) (main_arg6 : FVec F S16x64 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S16x64 .f32 := Host.absf main_arg6
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  main_v33

def fn {F : FTy → Type} [FloatOps F] (main_arg0 : FVec F S50000x128 .f32) (main_arg1 : FVec F S128x16 .f32) (main_arg2 : FVec F S16 .f32) (main_arg3 : FVec F S128x16 .f32) (main_arg4 : FVec F S16x64 .f32) (main_arg5 : FVec F S64 .f32) (main_arg6 : FVec F S16x64 .f32) (main_arg7 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg4 main_arg5 main_arg6 main_v13 main_v16
-- ==== Kernel.lean ====
abbrev S50000x128 : Shape := ⟨2, ![50000, 128]⟩
abbrev S128x16 : Shape := ⟨2, ![128, 16]⟩
abbrev S16 : Shape := ⟨1, ![16]⟩
abbrev S16x64 : Shape := ⟨2, ![16, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x16 : Shape := ⟨2, ![1, 16]⟩
abbrev S50000x16 : Shape := ⟨2, ![50000, 16]⟩
abbrev S5000x128 : Shape := ⟨2, ![5000, 128]⟩
abbrev S5000x16 : Shape := ⟨2, ![5000, 16]⟩
abbrev S800000x16 : Shape := ⟨2, ![800000, 16]⟩
abbrev S1x64 : Shape := ⟨2, ![1, 64]⟩
abbrev S50000x64 : Shape := ⟨2, ![50000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 59
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S128x16, .f32⟩
  | .hbm, ⟨2, _⟩ => ⟨S16, .f32⟩
  | .hbm, ⟨3, _⟩ => ⟨S128x16, .f32⟩
  | .hbm, ⟨4, _⟩ => ⟨S16x64, .f32⟩
  | .hbm, ⟨5, _⟩ => ⟨S64, .f32⟩
  | .hbm, ⟨6, _⟩ => ⟨S16x64, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x16, .f32⟩
  | .hbm, ⟨41, _⟩ => ⟨S50000x16, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x16, .f32⟩
  | .hbm, ⟨51, _⟩ => ⟨S_, .f32⟩
  | .hbm, ⟨52, _⟩ => ⟨S50000x16, .f32⟩
  | .hbm, ⟨53, _⟩ => ⟨S800000x1, .i32⟩
  | .hbm, ⟨54, _⟩ => ⟨S50000x16, .f32⟩
  | .hbm, ⟨55, _⟩ => ⟨S50000x16, .f32⟩
  | .hbm, ⟨56, _⟩ => ⟨S50000x16, .f32⟩
  | .hbm, ⟨57, _⟩ => ⟨S1x64, .f32⟩
  | .hbm, ⟨58, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x16, .f32⟩
  | .local _ .vmem, ⟨5, _⟩ => ⟨S1x16, .f32⟩
  | .local _ .vmem, ⟨6, _⟩ => ⟨S128x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S16x64, .f32⟩
  | .local _ .vmem, ⟨14, _⟩ => ⟨S1x64, .f32⟩
  | .local _ .vmem, ⟨15, _⟩ => ⟨S16x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S16_S1x16 : S16.ShapeCasts S1x16
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  shapeCasts_S64_S1x64 : S64.ShapeCasts S1x64
  shapeCasts_S5000x16_S5000x16 : S5000x16.ShapeCasts S5000x16
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x16_S5000x16_1_0_0_1_n_n_wf : DotDims.WF S5000x128 S128x16 S5000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S5000x16_S16x64_S5000x64_1_0_0_1_n_n_wf : DotDims.WF S5000x16 S16x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S128x16.size a
  hwx0_4 : ∀ i : grid0.Coords, EltTy.bits .f32 = 32 ∨ (Rect.block (s := S128x16) S128x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S50000x16.size a
  hwx0_5 : ∀ i : grid0.Coords, EltTy.bits .f32 = 32 ∨ (Rect.block (s := S50000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S50000x16.size a
  hwx1_0 : ∀ i : grid1.Coords, EltTy.bits .f32 = 32 ∨ (Rect.block (s := S50000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S50000x16.size a
  hwx1_1 : ∀ i : grid1.Coords, EltTy.bits .f32 = 32 ∨ (Rect.block (s := S50000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S16x64.size a
  hwx1_4 : ∀ i : grid1.Coords, EltTy.bits .f32 = 32 ∨ (Rect.block (s := S16x64) S16x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x16 : Shape := ⟨2, ![128, 16]⟩
abbrev S16 : Shape := ⟨1, ![16]⟩
abbrev S16x64 : Shape := ⟨2, ![16, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x16 : Shape := ⟨2, ![50000, 16]⟩
abbrev S1x16 : Shape := ⟨2, ![1, 16]⟩
abbrev S800000x16 : Shape := ⟨2, ![800000, 16]⟩
abbrev S50000x64 : Shape := ⟨2, ![50000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x16, .f32⟩
  | .hbm, ⟨2, _⟩ => ⟨S16, .f32⟩
  | .hbm, ⟨3, _⟩ => ⟨S128x16, .f32⟩
  | .hbm, ⟨4, _⟩ => ⟨S16x64, .f32⟩
  | .hbm, ⟨5, _⟩ => ⟨S64, .f32⟩
  | .hbm, ⟨6, _⟩ => ⟨S16x64, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x16, .f32⟩
  | .hbm, ⟨38, _⟩ => ⟨S1x16, .f32⟩
  | .hbm, ⟨39, _⟩ => ⟨S50000x16, .f32⟩
  | .hbm, ⟨40, _⟩ => ⟨S50000x16, .f32⟩
  | .hbm, ⟨41, _⟩ => ⟨S50000x16, .f32⟩
  | .hbm, ⟨42, _⟩ => ⟨S50000x16, .f32⟩
  | .hbm, ⟨43, _⟩ => ⟨S_, .f32⟩
  | .hbm, ⟨44, _⟩ => ⟨S50000x16, .f32⟩
  | .hbm, ⟨45, _⟩ => ⟨S50000x16, .f32⟩
  | .hbm, ⟨46, _⟩ => ⟨S1x800000, .i32⟩
  | .hbm, ⟨47, _⟩ => ⟨S800000, .i32⟩
  | .hbm, ⟨48, _⟩ => ⟨S1x800000, .i32⟩
  | .hbm, ⟨49, _⟩ => ⟨S800000, .i32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x16, .f32⟩
  | .hbm, ⟨59, _⟩ => ⟨S_, .f32⟩
  | .hbm, ⟨60, _⟩ => ⟨S50000x16, .f32⟩
  | .hbm, ⟨61, _⟩ => ⟨S800000x1, .i32⟩
  | .hbm, ⟨62, _⟩ => ⟨S50000x16, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x16, .f32⟩
  | .hbm, ⟨74, _⟩ => ⟨S50000x16, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S50000x64, .f32⟩
  | .hbm, ⟨95, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x16_S50000x16_1_0_0_1_n_n_wf : DotDims.WF S50000x128 S128x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S50000x16_S16x64_S50000x64_1_0_0_1_n_n_wf : DotDims.WF S50000x16 S16x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf

class Facts : Prop extends Facts₀ where

variable [Facts]
-- ==== Proof.KernelRun.lean ====
/-
  The kernel program's run with its RESULT named: every weakly fair execution of @main terminates, nothing faulting, with
  the result buffer at what the last boundary of the run holds there and the eight argument arrays as launched.

  @main is four segments — the host operations before the first region, the first region, the host operations between the
  regions, the second region — and the contents of every unscoped buffer at each boundary are a fold from the launch
  memory: a host stretch applies its operations, a region leaves its result array at what its ten write-backs leave and
  every other buffer as it was. The run is the segments' run; the final state holds every unscoped buffer at the last
  boundary's contents, the result buffer among them.
-/
import proofs.«158502_j34634616275240_1_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffer read at the last boundary's contents and each argument array read back to the
    launch memory. -/
theorem run_out : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Chain.lean ====
/-
  The edge aggregation both programs share, as functions of the edge list `e : i32[2, 800000]` alone (and of the node
  features for the two sums): the source and destination rows, a source wrapped when negative (an index `s < 0` reads
  row `s + 50000`), the number of edges into each node (a scatter-add of ones into zeros at the destinations), and the sum
  over a node's incoming edges of the source's feature row (a gather at the wrapped sources, scatter-added into zeros at the
  destinations). No proof opens the gather or the scatter-add: the two programs spell these maps with the same
  operations — stated once over each program's own shape records, and the two spellings are one map —, and everything
  downstream takes them as given maps.
-/
import proofs.«158502_j34634616275240_1_alg».proof.Proof.Gen.KernelIdeal
import proofs.«158502_j34634616275240_1_alg».proof.Proof.Gen.ReferenceIdeal

noncomputable section

namespace Cert.Chain

open Idealize.ShloMosaic Idealize.ShloMosaic.TcCoe Idealize.SL.Sem
open Cert.ReferenceIdeal Cert.ReferenceIdeal.Gen

variable {F : FTy → Type} [FloatOps F]

/-- Row 0 of the edge list: the source node of each edge. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: the destination node of each edge. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A node index wrapped around the 50000 nodes when negative. -/
def wrap (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s

/-- The number of edges into each node, from the destinations. -/
def degFrom (d : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 d)
    (broadcastInDim S800000 ![] bcast_S_S800000 (constant S_ .f32 0x3F800000#32))

/-- The sum over a node's incoming edges of the source's 128 features, from the sources and destinations. -/
def aggFrom128 (s d : (⟨S800000, .i32⟩ : BufTy).Contents (Elt F)) (x : (⟨S50000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 x
      (broadcastInDim S800000x1 ![0] bcast_S800000_S800000x1_0 (wrap s)))

/-- The same sum of the source's 16 hidden features. -/
def aggFrom16 (s d : (⟨S800000, .i32⟩ : BufTy).Contents (Elt F)) (h : (⟨S50000x16, .f32⟩ : BufTy).Contents (Elt F)) :
    (⟨S50000x16, .f32⟩ : BufTy).Contents (Elt F) :=
  Host.scatterAdd scatter_S50000x16_S800000x1_S800000x16_1_0_0_1
    (broadcastInDim S50000x16 ![] bcast_S_S50000x16 (constant S_ .f32 0x00000000#32))
    (broadcastInDim S800000x1 ![0] bcast_S800000_S800000x1_0 d)
    (Host.gather gather_S50000x16_S800000x1_S800000x16_1_0_n_n_0_1_116 h
      (broadcastInDim S800000x1 ![0] bcast_S800000_S800000x1_0 (wrap s)))

/-- The degrees, from the edge list. -/
def deg (e : (⟨S2x800000, .i32⟩ : BufTy).Contents (Elt F)) : (⟨S50000, .f32⟩ : BufTy).Contents (Elt F) := degFrom (dst e)

/-- The aggregation of 128 features, from the edge list. -/
def agg128 (e : (⟨S2x800000, .i32⟩ : BufTy).Contents (Elt F)) (x : (⟨S50000x128, .f32⟩ : BufTy).Contents (Elt F)) :
    (⟨S50000x128, .f32⟩ : BufTy).Contents (Elt F) := aggFrom128 (src e) (dst e) x

/-- The aggregation of 16 features, from the edge list. -/
def agg16 (e : (⟨S2x800000, .i32⟩ : BufTy).Contents (Elt F)) (h : (⟨S50000x16, .f32⟩ : BufTy).Contents (Elt F)) :
    (⟨S50000x16, .f32⟩ : BufTy).Contents (Elt F) := aggFrom16 (src e) (dst e) h

end Cert.Chain

namespace Cert.ChainK

open Idealize.ShloMosaic Idealize.ShloMosaic.TcCoe Idealize.SL.Sem
open Cert.KernelIdeal Cert.KernelIdeal.Gen

variable {F : FTy → Type} [FloatOps F]

/-- Row 0 of the edge list: the source node of each edge. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: the destination node of each edge. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A node index wrapped around the 50000 nodes when negative. -/
def wrap (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s

/-- The number of edges into each node, from the destinations. -/
def degFrom (d : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 d)
    (broadcastInDim S800000 ![] bcast_S_S800000 (constant S_ .f32 0x3F800000#32))

/-- The sum over a node's incoming edges of the source's 128 features, from the sources and destinations. -/
def aggFrom128 (s d : (⟨S800000, .i32⟩ : BufTy).Contents (Elt F)) (x : (⟨S50000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 x
      (broadcastInDim S800000x1 ![0] bcast_S800000_S800000x1_0 (wrap s)))

/-- The same sum of the source's 16 hidden features. -/
def aggFrom16 (s d : (⟨S800000, .i32⟩ : BufTy).Contents (Elt F)) (h : (⟨S50000x16, .f32⟩ : BufTy).Contents (Elt F)) :
    (⟨S50000x16, .f32⟩ : BufTy).Contents (Elt F) :=
  Host.scatterAdd scatter_S50000x16_S800000x1_S800000x16_1_0_0_1
    (broadcastInDim S50000x16 ![] bcast_S_S50000x16 (constant S_ .f32 0x00000000#32))
    (broadcastInDim S800000x1 ![0] bcast_S800000_S800000x1_0 d)
    (Host.gather gather_S50000x16_S800000x1_S800000x16_1_0_n_n_0_1_116 h
      (broadcastInDim S800000x1 ![0] bcast_S800000_S800000x1_0 (wrap s)))

/-- The degrees, from the edge list. -/
def deg (e : (⟨S2x800000, .i32⟩ : BufTy).Contents (Elt F)) : (⟨S50000, .f32⟩ : BufTy).Contents (Elt F) := degFrom (dst e)

/-- The aggregation of 128 features, from the edge list. -/
def agg128 (e : (⟨S2x800000, .i32⟩ : BufTy).Contents (Elt F)) (x : (⟨S50000x128, .f32⟩ : BufTy).Contents (Elt F)) :
    (⟨S50000x128, .f32⟩ : BufTy).Contents (Elt F) := aggFrom128 (src e) (dst e) x

/-- The aggregation of 16 features, from the edge list. -/
def agg16 (e : (⟨S2x800000, .i32⟩ : BufTy).Contents (Elt F)) (h : (⟨S50000x16, .f32⟩ : BufTy).Contents (Elt F)) :
    (⟨S50000x16, .f32⟩ : BufTy).Contents (Elt F) := aggFrom16 (src e) (dst e) h

end Cert.ChainK

/-! ## The two spellings are one map -/

namespace Cert.ChainK

open Idealize.ShloMosaic

variable {F : FTy → Type} [FloatOps F]

theorem deg_eq (e : (⟨Cert.KernelIdeal.S2x800000, .i32⟩ : BufTy).Contents (Elt F)) : deg e = Cert.Chain.deg e := rfl

theorem agg128_eq (e : (⟨Cert.KernelIdeal.S2x800000, .i32⟩ : BufTy).Contents (Elt F))
    (x : (⟨Cert.KernelIdeal.S50000x128, .f32⟩ : BufTy).Contents (Elt F)) : agg128 e x = Cert.Chain.agg128 e x := rfl

theorem agg16_eq (e : (⟨Cert.KernelIdeal.S2x800000, .i32⟩ : BufTy).Contents (Elt F))
    (h : (⟨Cert.KernelIdeal.S50000x16, .f32⟩ : BufTy).Contents (Elt F)) : agg16 e h = Cert.Chain.agg16 e h := rfl

end Cert.ChainK

end
-- ==== Proof.Spec.lean ====
/-
  The mathematics both programs compute: a two-layer GraphSAGE network with mean aggregation, ending in a row-wise
  log-softmax, over the extended reals.

  For a node `p`, the aggregated message `msg p` is the sum over the edges into `p` of the source node's features, and
  `deg p` is the number of such edges; the mean is `msg p · (max (deg p) 1)⁻¹`. A layer is
      lin p q = (∑ₖ mean[p,k]·Wl[k,q] + ∑ₖ x[p,k]·Wr[k,q]) + b[q],
  the first layer clamps it below at zero, the second subtracts its row maximum `M p` and then
  `log ∑_q exp (lin p q − M p)`.

  How the edge sums are formed (a gather followed by a scatter-add on the host) is the same text in both programs, so
  the network is stated over ANY aggregation maps `agg₁`, `agg₂` and any degree vector `deg`.

  Two algebraic facts join the two programs: a quotient by `max d 1` is the product with the reciprocal `1 / max d 1`
  (the divisor is never zero: it is at least one), and a sum of three terms may be taken in either order.
-/
import Idealize.ShloMosaic.PureOps.Ideal
import Idealize.ShloMosaic.Lib.ValueIdx
import Idealize.ShloMosaic.Lib.IdealHost

noncomputable section

open scoped BigOperators

namespace Cert.Sage

open Idealize.ShloMosaic Idealize.ShloMosaic.ValueIdx

/-- An `[n, d]` array of extended reals. -/
abbrev Mat (n d : Nat) : Type := (⟨2, ![n, d]⟩ : Shape).Idx → EReal
/-- An `[n]` vector of extended reals. -/
abbrev Vec1 (n : Nat) : Type := (⟨1, ![n]⟩ : Shape).Idx → EReal

/-- The float pattern of `-∞`, the neutral element a row maximum starts from. -/
abbrev negInf : EReal := Ideal.ofBits .f32 0xFF800000#32

/-- The mean over a node's incoming edges: the summed messages times the reciprocal of `max deg 1`. -/
def meanOf (D : Nat) (msg : Mat 50000 D) (deg : Vec1 50000) : Mat 50000 D :=
  fun i => msg i * (max (deg (ix1 (i 0))) 1)⁻¹

/-- One SAGE layer before its activation, at node `p` and output channel `q`. -/
def lin (D E : Nat) (mean x : Mat 50000 D) (Wl Wr : Mat D E) (b : Fin E → EReal) (p : Fin 50000) (q : Fin E) : EReal :=
  ((∑ k : Fin D, mean (ix2 p k) * Wl (ix2 k q)) + ∑ k : Fin D, x (ix2 p k) * Wr (ix2 k q)) + b q

/-- The first layer: the linear part clamped below at zero. -/
def hidden (mean x : Mat 50000 128) (Wl Wr : Mat 128 16) (b : Fin 16 → EReal) : Mat 50000 16 :=
  fun i => max (lin 128 16 mean x Wl Wr b (i 0) (i 1)) 0

/-- A row's maximum, folded from `-∞`. -/
def rowMax (f : Fin 64 → EReal) : EReal := (Finset.univ : Finset (Fin 64)).fold max negInf f

/-- The log-softmax of one row of 64 logits. -/
def logSoftmaxRow (f : Fin 64 → EReal) (q : Fin 64) : EReal :=
  (f q - rowMax f) - Ideal.log (∑ k : Fin 64, Ideal.exp (f k - rowMax f))

/-- The second layer: the linear part, then the row-wise log-softmax. -/
def output (mean h : Mat 50000 16) (Wl Wr : Mat 16 64) (b : Fin 64 → EReal) : Mat 50000 64 :=
  fun i => logSoftmaxRow (fun q => lin 16 64 mean h Wl Wr b (i 0) q) (i 1)

/-- The whole network, over the aggregation maps and the degree vector. -/
def net (agg₁ : Mat 50000 128 → Mat 50000 128) (agg₂ : Mat 50000 16 → Mat 50000 16) (deg : Vec1 50000)
    (x : Mat 50000 128) (W1l : Mat 128 16) (b1 : Fin 16 → EReal) (W1r : Mat 128 16)
    (W2l : Mat 16 64) (b2 : Fin 64 → EReal) (W2r : Mat 16 64) : Mat 50000 64 :=
  output (meanOf 16 (agg₂ (hidden (meanOf 128 (agg₁ x) deg) x W1l W1r b1)) deg)
    (hidden (meanOf 128 (agg₁ x) deg) x W1l W1r b1) W2l W2r b2

/-! ## The two algebraic facts -/

/-- `max d 1` is never zero. -/
theorem max_one_ne_zero (d : EReal) : max d 1 ≠ 0 :=
  ne_of_gt (lt_of_lt_of_le zero_lt_one (le_max_right d 1))

/-- A quotient by `max d 1` is the product with its inverse. -/
theorem div_max_one (a d : EReal) : Ideal.div a (max d 1) = a * (max d 1)⁻¹ := by
  rw [Ideal.div, if_neg (max_one_ne_zero d)]

/-- The product with the reciprocal `1 / max d 1` is the product with the inverse too. -/
theorem mul_one_div_max_one (a d : EReal) : a * Ideal.div 1 (max d 1) = a * (max d 1)⁻¹ := by
  rw [Ideal.div, if_neg (max_one_ne_zero d), one_mul]

/-- Three terms summed in the other order. -/
theorem add_right_comm' (a b c : EReal) : (a + b) + c = (a + c) + b := add_right_comm a b c

/-- A row maximum is at least the value it is folded from, so taking the maximum with that value again changes nothing. -/
theorem max_negInf_rowMax (f : Fin 64 → EReal) : max negInf (rowMax f) = rowMax f :=
  max_eq_right (Finset.le_fold_max negInf |>.mpr (Or.inl le_rfl))

end Cert.Sage

end
-- ==== Proof.KernelMean.lean ====
/-
  The kernel program's mean over incoming edges: the summed messages TIMES the broadcast of the reciprocal
  `1 / max deg 1`. The divisor is at least one, so the reciprocal is the inverse and the product is the network's mean.
-/
import proofs.«158502_j34634616275240_1_alg».proof.Proof.Gen.KernelIdeal
import proofs.«158502_j34634616275240_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Mean

open Idealize.ShloMosaic Idealize.ShloMosaic.TcCoe Idealize.SL.Sem Idealize.ShloMosaic.ValueIdx
open Cert.KernelIdeal Cert.KernelIdeal.Gen

/-- The reciprocal of `max deg 1` as a `[50000, 1]` column, as the kernel program's host operations spell it. -/
def invDeg (deg : FVec Ideal S50000 .f32) : FVec Ideal S50000x1 .f32 :=
  broadcastInDim S50000x1 ![0] bcast_S50000_S50000x1_0
    (Host.divf (F := Ideal) (broadcastInDim S50000 ![] bcast_S_S50000 (constant (F := Ideal) S_ .f32 0x3F800000#32))
      (maximumf deg (broadcastInDim S50000 ![] bcast_S_S50000 (constant (F := Ideal) S_ .f32 0x3F800000#32))))

/-- The kernel program's mean, 128 channels. -/
def mean128 (msg : FVec Ideal S50000x128 .f32) (deg : FVec Ideal S50000 .f32) : FVec Ideal S50000x128 .f32 :=
  mulf msg (broadcastInDim S50000x128 ![0, 1] bcast_S50000x1_S50000x128_0_1 (invDeg deg))

/-- The kernel program's mean, 16 channels. -/
def mean16 (msg : FVec Ideal S50000x16 .f32) (deg : FVec Ideal S50000 .f32) : FVec Ideal S50000x16 .f32 :=
  mulf msg (broadcastInDim S50000x16 ![0, 1] bcast_S50000x1_S50000x16_0_1 (invDeg deg))

/-- The reciprocal column read at row `p`: one over `max (deg p) 1`. -/
theorem invDeg_apply (deg : FVec Ideal S50000 .f32) (p : Fin 50000) (c : Fin 1) :
    invDeg deg (ix2 p c) = Ideal.div 1 (max (deg (ix1 p)) 1) := by
  unfold invDeg
  refine (broadcastInDim_apply _ bcast_S50000_S50000x1_0 _ (ix2 p c) (ix1 p) (fun a => match a with
    | ⟨0, _⟩ => by show p.val = if (50000 : Nat) = 1 then 0 else p.val; rw [if_neg (by decide)])).trans ?_
  rw [hostDivf_apply, maximumf_apply, broadcastInDim_scalar_apply, constant_apply, Ideal.ofBits_one_f32]

/-- The product with the broadcast reciprocal is the network's mean. -/
theorem mean128_eq (msg : FVec Ideal S50000x128 .f32) (deg : FVec Ideal S50000 .f32) :
    mean128 msg deg = Cert.Sage.meanOf 128 msg deg := by
  funext j
  obtain ⟨p, q, rfl⟩ : ∃ (p : Fin 50000) (q : Fin 128), j = ix2 p q := ⟨j 0, j 1, eq_ix2 j⟩
  unfold mean128 Cert.Sage.meanOf
  rw [mulf_apply]
  refine (congrArg (msg (ix2 p q) * ·) ((broadcastInDim_apply _ bcast_S50000x1_S50000x128_0_1 (invDeg deg) (ix2 p q)
    (ix2 p (0 : Fin 1)) (fun a => match a with
      | ⟨0, _⟩ => by show p.val = if (50000 : Nat) = 1 then 0 else p.val; rw [if_neg (by decide)]
      | ⟨1, _⟩ => by show 0 = if (1 : Nat) = 1 then 0 else q.val; rw [if_pos rfl])).trans (invDeg_apply deg p 0))).trans ?_
  exact Cert.Sage.mul_one_div_max_one _ _

theorem mean16_eq (msg : FVec Ideal S50000x16 .f32) (deg : FVec Ideal S50000 .f32) :
    mean16 msg deg = Cert.Sage.meanOf 16 msg deg := by
  funext j
  obtain ⟨p, q, rfl⟩ : ∃ (p : Fin 50000) (q : Fin 16), j = ix2 p q := ⟨j 0, j 1, eq_ix2 j⟩
  unfold mean16 Cert.Sage.meanOf
  rw [mulf_apply]
  refine (congrArg (msg (ix2 p q) * ·) ((broadcastInDim_apply _ bcast_S50000x1_S50000x16_0_1 (invDeg deg) (ix2 p q)
    (ix2 p (0 : Fin 1)) (fun a => match a with
      | ⟨0, _⟩ => by show p.val = if (50000 : Nat) = 1 then 0 else p.val; rw [if_neg (by decide)]
      | ⟨1, _⟩ => by show 0 = if (1 : Nat) = 1 then 0 else q.val; rw [if_pos rfl])).trans (invDeg_apply deg p 0))).trans ?_
  exact Cert.Sage.mul_one_div_max_one _ _

end Cert.KernelIdeal.Mean

end
-- ==== Proof.KernelHost.lean ====
/-
  The kernel program's two stretches of host operations, read from ANY buffer contents `W` at their entry.

  Before the first region: the edge rows, the degrees and the reciprocal column `1 / max deg 1`, the wrapped sources, the
  gather and the scatter-add of `x`, and the product with the broadcast reciprocal — the first layer's mean; the bias
  `b1` reshaped to a row. Between the regions: the same aggregation of the first region's result (the edge rows and the
  reciprocal column are the first stretch's buffers, read again), the product — the second layer's mean; the bias `b2`
  reshaped to a row. A buffer a stretch does not write keeps its contents across it.
-/
import proofs.«158502_j34634616275240_1_alg».proof.Proof.Gen.KernelIdeal.Launch
import proofs.«158502_j34634616275240_1_alg».proof.Proof.Chain
import proofs.«158502_j34634616275240_1_alg».proof.Proof.KernelMean
import Idealize.ShloMosaic.Lib.StableHlo.Run

noncomputable section

namespace Cert.KernelIdeal.HostStages

open Cert.KernelIdeal Cert.KernelIdeal.Gen Idealize.ShloMosaic Idealize.ShloMosaic.TcCoe Idealize.SL.Sem Idealize.ShloMosaic.StableHlo

variable {F : FTy → Type} [FloatOps F]

/-! ## What each stretch leaves untouched -/

theorem keep0_main_arg0 (W : Valuation τ sig (Elt F)) :
    StableHlo.after (hostOps0 (F := F)) W (Proc.devRef .tc main_arg0) = W (Proc.devRef .tc main_arg0) :=
  StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem keep0_main_arg1 (W : Valuation τ sig (Elt F)) :
    StableHlo.after (hostOps0 (F := F)) W (Proc.devRef .tc main_arg1) = W (Proc.devRef .tc main_arg1) :=
  StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem keep0_main_arg3 (W : Valuation τ sig (Elt F)) :
    StableHlo.after (hostOps0 (F := F)) W (Proc.devRef .tc main_arg3) = W (Proc.devRef .tc main_arg3) :=
  StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem keep0_main_arg4 (W : Valuation τ sig (Elt F)) :
    StableHlo.after (hostOps0 (F := F)) W (Proc.devRef .tc main_arg4) = W (Proc.devRef .tc main_arg4) :=
  StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem keep0_main_arg5 (W : Valuation τ sig (Elt F)) :
    StableHlo.after (hostOps0 (F := F)) W (Proc.devRef .tc main_arg5) = W (Proc.devRef .tc main_arg5) :=
  StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem keep0_main_arg6 (W : Valuation τ sig (Elt F)) :
    StableHlo.after (hostOps0 (F := F)) W (Proc.devRef .tc main_arg6) = W (Proc.devRef .tc main_arg6) :=
  StableHlo.after_of_forall_not_mem _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem keep1_main_v26 (W : Valuation τ sig (Elt F)) :
    StableHlo.after (hostOps1 (F := F)) W (Proc.devRef .tc main_v26) = W (Proc.devRef .tc main_v26) :=
  StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem keep1_main_arg4 (W : Valuation τ sig (Elt F)) :
    StableHlo.after (hostOps1 (F := F)) W (Proc.devRef .tc main_arg4) = W (Proc.devRef .tc main_arg4) :=
  StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem keep1_main_arg6 (W : Valuation τ sig (Elt F)) :
    StableHlo.after (hostOps1 (F := F)) W (Proc.devRef .tc main_arg6) = W (Proc.devRef .tc main_arg6) :=
  StableHlo.after_of_forall_not_mem _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-! ## What each stretch computes (extended reals) -/

section Values

variable (W : Valuation τ sig (Elt Ideal))

/-- The source row of the edge list. -/
theorem first_src : StableHlo.after (hostOps0 (F := Ideal)) W (Proc.devRef .tc main_v1) = Cert.ChainK.src (W (Proc.devRef .tc main_arg7)) := by
  after_results; rfl

/-- The destination row of the edge list. -/
theorem first_dst : StableHlo.after (hostOps0 (F := Ideal)) W (Proc.devRef .tc main_v3) = Cert.ChainK.dst (W (Proc.devRef .tc main_arg7)) := by
  after_results; rfl

/-- The reciprocal column `1 / max deg 1`. -/
theorem first_invDeg : StableHlo.after (hostOps0 (F := Ideal)) W (Proc.devRef .tc main_v12)
    = Mean.invDeg (Cert.ChainK.deg (W (Proc.devRef .tc main_arg7))) := by
  after_results; rfl

set_option maxHeartbeats 4000000 in
/-- The first layer's mean: the aggregated `x` times the broadcast reciprocal. -/
theorem first_mean : StableHlo.after (hostOps0 (F := Ideal)) W (Proc.devRef .tc main_v24)
    = Mean.mean128 (Cert.ChainK.agg128 (W (Proc.devRef .tc main_arg7)) (W (Proc.devRef .tc main_arg0))) (Cert.ChainK.deg (W (Proc.devRef .tc main_arg7))) := by
  after_results_simp; rfl

/-- The first bias as a `[1, 16]` row. -/
theorem first_bias : StableHlo.after (hostOps0 (F := Ideal)) W (Proc.devRef .tc main_v25)
    = shapeCast S1x16 (W (Proc.devRef .tc main_arg2)) shapeCasts_S16_S1x16 := by
  after_results; rfl

set_option maxHeartbeats 4000000 in
/-- The second layer's mean, from the edge rows, the reciprocal column and the hidden array the stretch finds. -/
theorem second_mean : StableHlo.after (hostOps1 (F := Ideal)) W (Proc.devRef .tc main_v38)
    = mulf (Cert.ChainK.aggFrom16 (W (Proc.devRef .tc main_v1)) (W (Proc.devRef .tc main_v3)) (W (Proc.devRef .tc main_v26)))
        (broadcastInDim S50000x16 ![0, 1] bcast_S50000x1_S50000x16_0_1 (W (Proc.devRef .tc main_v12))) := by
  after_results_simp; rfl

/-- The second bias as a `[1, 64]` row. -/
theorem second_bias : StableHlo.after (hostOps1 (F := Ideal)) W (Proc.devRef .tc main_v39)
    = shapeCast S1x64 (W (Proc.devRef .tc main_arg5)) shapeCasts_S64_S1x64 := by
  after_results; rfl

end Values

end Cert.KernelIdeal.HostStages

end
-- ==== Proof.Region0.lean ====
/-
  Region 0 of the kernel program (the first SAGE layer) as ONE function of the arrays it finds at entry.

  The grid has ten points; point `t` reads rows `5000 t … 5000 t + 4999` of the mean array and of `x`, the whole of the two
  weight matrices and of the bias row, and writes the same rows of the result. Row `p`, channel `q` of what it writes is
      max ((∑ₖ mean[p,k]·Wl[k,q] + ∑ₖ x[p,k]·Wr[k,q]) + b[q]) 0
  (the two matrix products into zero accumulators are plain sums over the extended reals, a change of float format is the
  identity). The ten row blocks tile the `[50000, 16]` result, so the whole array ends at that function.
-/
import proofs.«158502_j34634616275240_1_alg».proof.Proof.Gen.KernelIdeal.Frame
import proofs.«158502_j34634616275240_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

/-! ## One grid point's arithmetic, read at a row and a channel -/

/-- In the product of a `[5000, 128]` block with a `[128, 16]` matrix, the left factor of entry `i` at contraction
    position `k` sits in row `i 0` … -/
theorem lhs_row (i : S5000x16.Idx) (k : dot_S5000x128_S128x16_S5000x16_1_0_0_1_n_n.contr.Idx) :
    (dot_S5000x128_S128x16_S5000x16_1_0_0_1_n_n.lhsIdx i k 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
/-- … and column `k`; -/
theorem lhs_col (i : S5000x16.Idx) (k : dot_S5000x128_S128x16_S5000x16_1_0_0_1_n_n.contr.Idx) :
    (dot_S5000x128_S128x16_S5000x16_1_0_0_1_n_n.lhsIdx i k 1).val = (k ⟨0, by decide⟩).val :=
  dot_S5000x128_S128x16_S5000x16_1_0_0_1_n_n.lhsIdx_val_of_single rfl i k
/-- the right factor sits in row `k` … -/
theorem rhs_row (i : S5000x16.Idx) (k : dot_S5000x128_S128x16_S5000x16_1_0_0_1_n_n.contr.Idx) :
    (dot_S5000x128_S128x16_S5000x16_1_0_0_1_n_n.rhsIdx i k 0).val = (k ⟨0, by decide⟩).val :=
  dot_S5000x128_S128x16_S5000x16_1_0_0_1_n_n.rhsIdx_val_of_single rfl i k
/-- … and column `i 1`. -/
theorem rhs_col (i : S5000x16.Idx) (k : dot_S5000x128_S128x16_S5000x16_1_0_0_1_n_n.contr.Idx) :
    (dot_S5000x128_S128x16_S5000x16_1_0_0_1_n_n.rhsIdx i k 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- A matrix product into the zero accumulator, read at row `p` and channel `q`: the sum over the 128 columns of the
    left block's row `p` times the right matrix's column `q` — over the extended reals no rounding is left in it. -/
theorem product_apply (l : FVec Ideal S5000x128 .bf16) (r : FVec Ideal S128x16 .bf16) (p : Fin 5000) (q : Fin 16) :
    matmul (F := Ideal) dot_S5000x128_S128x16_S5000x16_1_0_0_1_n_n none l r (constant (F := Ideal) S5000x16 .f32 0x00000000#32) (ix2 p q)
      = ∑ k : Fin 128, l (ix2 p k) * r (ix2 k q) := by
  show FloatOps.matmul dot_S5000x128_S128x16_S5000x16_1_0_0_1_n_n none l r (constant (F := Ideal) S5000x16 .f32 0x00000000#32) (ix2 p q) = _
  rw [Ideal.matmul_constant_zero_apply, ← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx (ix2 p q) ((ValueIdx.contrEquiv1 dot_S5000x128_S128x16_S5000x16_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x16_S5000x16_1_0_0_1_n_n.rhsIdx (ix2 p q) ((ValueIdx.contrEquiv1 dot_S5000x128_S128x16_S5000x16_1_0_0_1_n_n 128 rfl rfl).symm k) = ix2 k q := funext fun a => Fin.ext (by
    match a with
    | ⟨0, _⟩ => exact (rhs_row _ _).trans hk
    | ⟨1, _⟩ => exact rhs_col _ _)
  rw [el, er]

/-- What one grid point stores, read at row `p` and channel `q` of its block: the two products of the loaded row blocks
    with the two weight matrices, added, plus the bias row's entry `q`, clamped below at zero. -/
theorem stored_apply (x0 x1 : Vec Ideal S5000x128 .f32) (x2 x4 : Vec Ideal S128x16 .f32) (x3 : Vec Ideal S1x16 .f32)
    (p : Fin 5000) (q : Fin 16) :
    k0_pay1 (F := Ideal) x0 x1 x2 x4 x3 (ix2 p q)
      = max (((∑ k : Fin 128, x0 (ix2 p k) * x2 (ix2 k q)) + ∑ k : Fin 128, x1 (ix2 p k) * x4 (ix2 k q)) + x3 (ix2 (0 : Fin 1) q)) 0 := by
  unfold k0_pay1
  rw [maximumf_apply, addf_apply, addf_apply, broadcast_apply, product_apply, product_apply, broadcastTo_1b_ab_apply]
  simp only [truncf_apply, shapeCast_self]
  exact congrArg (max _) Ideal.ofBits_zero_f32

/-- So, when the loaded row blocks hold rows `r` of the two node arrays at row `p`, and the other three blocks are the
    whole weight matrices and the bias row, the stored entry `(p, q)` is the first layer at node `r`, channel `q`. -/
theorem stored_eq_hidden (x0 x1 : Vec Ideal S5000x128 .f32) (x2 x4 : Vec Ideal S128x16 .f32) (x3 : Vec Ideal S1x16 .f32)
    (mean x : Cert.Sage.Mat 50000 128) (Wl Wr : Cert.Sage.Mat 128 16) (b : Fin 16 → EReal)
    (p : Fin 5000) (q : Fin 16) (r : Fin 50000)
    (h0 : ∀ k : Fin 128, x0 (ix2 p k) = mean (ix2 r k))
    (h1 : ∀ k : Fin 128, x1 (ix2 p k) = x (ix2 r k))
    (h2 : ∀ k : Fin 128, x2 (ix2 k q) = Wl (ix2 k q))
    (h4 : ∀ k : Fin 128, x4 (ix2 k q) = Wr (ix2 k q))
    (h3 : x3 (ix2 (0 : Fin 1) q) = b q) :
    k0_pay1 (F := Ideal) x0 x1 x2 x4 x3 (ix2 p q) = Cert.Sage.hidden mean x Wl Wr b (ix2 r q) := by
  rw [stored_apply]
  show _ = max (Cert.Sage.lin 128 16 mean x Wl Wr b r q) 0
  unfold Cert.Sage.lin
  simp only [h0, h1, h2, h4, h3]

variable (V : (c : Dev nD) → (b : Ref sig .tc) → Buf (Elt Ideal) ((c : Thread nD τ).loc b))

/-! ## What a grid point writes back -/

/-- The offsets of a whole-buffer load or store are zero on both axes. -/
theorem zero_offsets : (![0, 0] : Fin 2 → Nat) = fun _ => 0 := funext fun a => by fin_cases a <;> rfl

/-- The index maps, decided over the ten grid points: the two node arrays and the result move with the point along the
    rows, the two weight matrices and the bias row stay at block zero. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point `t`'s block of the mean array holds rows `5000 t …`: its row `p` is the array's row `5000 t + p`. -/
theorem mean_block (c : Dev nD) (t : Fin cfg0.N) (p : Fin 5000) (k : Fin 128) (r : Fin 50000) (hr : r.val = t.val * 5000 + p.val) :
    (iblk0 V c 0 t : Vec Ideal S5000x128 .f32) (ix2 p k) = V c main_v24 (ix2 r k) := by
  obtain ⟨e0, e1, -⟩ := block_indices t
  show V c main_v24 (((cfg0.win 0).blk t).view.emb (ix2 p k)) = V c main_v24 (ix2 r k)
  have h : ((cfg0.win 0).blk t).view.emb (ix2 p k) = ix2 r k := by
    funext a; apply Fin.ext
    match a with
    | ⟨0, _⟩ => show win0_0.index t (0 : Fin 2) * 5000 + 1 * p.val = r.val; rw [e0, hr]; omega
    | ⟨1, _⟩ => show win0_0.index t (1 : Fin 2) * 128 + 1 * k.val = k.val; rw [e1]; omega
  rw [h]

/-- The same for the node features `x`. -/
theorem x_block (c : Dev nD) (t : Fin cfg0.N) (p : Fin 5000) (k : Fin 128) (r : Fin 50000) (hr : r.val = t.val * 5000 + p.val) :
    (iblk0 V c 1 t : Vec Ideal S5000x128 .f32) (ix2 p k) = V c main_arg0 (ix2 r k) := by
  obtain ⟨-, -, e0, e1, -⟩ := block_indices t
  show V c main_arg0 (((cfg0.win 1).blk t).view.emb (ix2 p k)) = V c main_arg0 (ix2 r k)
  have h : ((cfg0.win 1).blk t).view.emb (ix2 p k) = ix2 r k := by
    funext a; apply Fin.ext
    match a with
    | ⟨0, _⟩ => show win0_1.index t (0 : Fin 2) * 5000 + 1 * p.val = r.val; rw [e0, hr]; omega
    | ⟨1, _⟩ => show win0_1.index t (1 : Fin 2) * 128 + 1 * k.val = k.val; rw [e1]; omega
  rw [h]

/-- The left weight matrix's block is the whole matrix at every point, … -/
theorem wl_block (c : Dev nD) (t : Fin cfg0.N) (k : Fin 128) (q : Fin 16) :
    (iblk0 V c 2 t : Vec Ideal S128x16 .f32) (ix2 k q) = V c main_arg1 (ix2 k q) := by
  obtain ⟨-, -, -, -, e0, e1, -⟩ := block_indices t
  show V c main_arg1 (((cfg0.win 2).blk t).view.emb (ix2 k q)) = V c main_arg1 (ix2 k q)
  have h : ((cfg0.win 2).blk t).view.emb (ix2 k q) = ix2 k q := by
    funext a; apply Fin.ext
    match a with
    | ⟨0, _⟩ => show win0_2.index t (0 : Fin 2) * 128 + 1 * k.val = k.val; rw [e0]; omega
    | ⟨1, _⟩ => show win0_2.index t (1 : Fin 2) * 16 + 1 * q.val = q.val; rw [e1]; omega
  rw [h]

/-- … so is the right weight matrix's, … -/
theorem wr_block (c : Dev nD) (t : Fin cfg0.N) (k : Fin 128) (q : Fin 16) :
    (iblk0 V c 4 t : Vec Ideal S128x16 .f32) (ix2 k q) = V c main_arg3 (ix2 k q) := by
  obtain ⟨-, -, -, -, -, -, -, -, e0, e1, -⟩ := block_indices t
  show V c main_arg3 (((cfg0.win 4).blk t).view.emb (ix2 k q)) = V c main_arg3 (ix2 k q)
  have h : ((cfg0.win 4).blk t).view.emb (ix2 k q) = ix2 k q := by
    funext a; apply Fin.ext
    match a with
    | ⟨0, _⟩ => show win0_4.index t (0 : Fin 2) * 128 + 1 * k.val = k.val; rw [e0]; omega
    | ⟨1, _⟩ => show win0_4.index t (1 : Fin 2) * 16 + 1 * q.val = q.val; rw [e1]; omega
  rw [h]

/-- … and the bias row's block is the whole row. -/
theorem bias_block (c : Dev nD) (t : Fin cfg0.N) (q : Fin 16) :
    (iblk0 V c 3 t : Vec Ideal S1x16 .f32) (ix2 (0 : Fin 1) q) = V c main_v25 (ix2 (0 : Fin 1) q) := by
  obtain ⟨-, -, -, -, -, -, e0, e1, -⟩ := block_indices t
  show V c main_v25 (((cfg0.win 3).blk t).view.emb (ix2 (0 : Fin 1) q)) = V c main_v25 (ix2 (0 : Fin 1) q)
  have h : ((cfg0.win 3).blk t).view.emb (ix2 (0 : Fin 1) q) = ix2 (0 : Fin 1) q := by
    funext a; apply Fin.ext
    match a with
    | ⟨0, _⟩ => show win0_3.index t (0 : Fin 2) * 1 + 1 * (0 : Fin 1).val = (0 : Fin 1).val; rw [e0]; rfl
    | ⟨1, _⟩ => show win0_3.index t (1 : Fin 2) * 16 + 1 * q.val = q.val; rw [e1]; omega
  rw [h]

/-- WHAT POINT `t` WRITES BACK is its row block of the first layer of the arrays found at entry: the one store leaves the
    point's arithmetic of the five loaded blocks, each of which holds the rows (or the whole) of its array that the
    result's rows `5000 t …` need. -/
theorem written_back (c : Dev nD) (t : Fin cfg0.N) :
    (dat0 (F := Ideal) V c).flushed 5 t = ((cfg0.win 5).blk t).view.read (Elt Ideal) (Cert.Sage.hidden (V c main_v24) (V c main_arg0) (V c main_arg1) (V c main_arg3) (fun q => V c main_v25 (ix2 (0 : Fin 1) q))) := by
  show (cfg0.win 5).cut (grid0.coords t) ((dat0 (F := Ideal) V c).after 5 t) = _
  rw [after0_5]
  unfold out0_5
  rw [View.canon_unit_zero zero_offsets]
  simp only [View.ld_unit_zero (S := S5000x128) zero_offsets, View.ld_unit_zero (S := S128x16) zero_offsets, View.ld_unit_zero (S := S1x16) zero_offsets]
  funext j
  obtain ⟨p, q, rfl⟩ : ∃ (p : Fin 5000) (q : Fin 16), j = ix2 p q := ⟨j 0, j 1, eq_ix2 j⟩
  have ht : t.val < 10 := lt_of_lt_of_eq t.isLt N_0
  obtain ⟨-, -, -, -, -, -, -, -, -, -, e0, e1⟩ := block_indices t
  have hemb : ((cfg0.win 5).blk t).view.emb (ix2 p q) = ix2 (⟨t.val * 5000 + p.val, by omega⟩ : Fin 50000) q := by
    funext a; apply Fin.ext
    match a with
    | ⟨0, _⟩ => show win0_5.index t (0 : Fin 2) * 5000 + 1 * p.val = t.val * 5000 + p.val; rw [e0]; omega
    | ⟨1, _⟩ => show win0_5.index t (1 : Fin 2) * 16 + 1 * q.val = q.val; rw [e1]; omega
  show k0_pay1 (F := Ideal) (iblk0 V c 0 t) (iblk0 V c 1 t) (iblk0 V c 2 t) (iblk0 V c 4 t) (iblk0 V c 3 t) (ix2 p q)
      = Cert.Sage.hidden (V c main_v24) (V c main_arg0) (V c main_arg1) (V c main_arg3) (fun q => V c main_v25 (ix2 (0 : Fin 1) q)) (((cfg0.win 5).blk t).view.emb (ix2 p q))
  rw [hemb]
  exact stored_eq_hidden (iblk0 V c 0 t) (iblk0 V c 1 t) (iblk0 V c 2 t) (iblk0 V c 4 t) (iblk0 V c 3 t)
    (V c main_v24) (V c main_arg0) (V c main_arg1) (V c main_arg3) (fun q => V c main_v25 (ix2 (0 : Fin 1) q)) p q
    ⟨t.val * 5000 + p.val, by omega⟩
    (fun k => mean_block V c t p k _ rfl) (fun k => x_block V c t p k _ rfl)
    (fun k => wl_block V c t k q) (fun k => wr_block V c t k q) (bias_block V c t q)

/-! ## The ten row blocks tile the result -/

/-- A node's row is in point `t`'s block iff it is one of rows `5000 t … 5000 t + 4999` (and its channel is one of the 16). -/
theorem mem_row_block (t : Fin cfg0.N) (i : S50000x16.Idx) :
    i ∈ ((cfg0.win 5).blk t).view.set ↔ ∀ a : Fin 2, win0_5.index t a * S5000x16.size a ≤ (i a).val ∧ (i a).val < win0_5.index t a * S5000x16.size a + S5000x16.size a := by
  show i ∈ ((View.whole main_v26).slice (win0_5.rect t)).set ↔ _
  rw [View.set_slice_whole, Rect.mem_set_unit]
  exact Iff.rfl

/-- Every entry of the result is written back by some point: row `r` by point `r / 5000`. -/
theorem rows_covered (i : S50000x16.Idx) : ∃ t : Fin cfg0.N, (cfg0.win 5).flush t = true ∧ i ∈ ((cfg0.win 5).blk t).view.set := by
  have hi0 : (i 0).val < 50000 := (i 0).isLt
  have hi1 : (i 1).val < 16 := (i 1).isLt
  have hN : cfg0.N = 10 := N_0
  have hlt : (i 0).val / 5000 < cfg0.N := by rw [hN]; omega
  obtain ⟨-, -, -, -, -, -, -, -, -, -, e0, e1⟩ := block_indices ⟨(i 0).val / 5000, hlt⟩
  refine ⟨⟨(i 0).val / 5000, hlt⟩, flush0_5 _, ?_⟩
  rw [mem_row_block]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 16 ≤ (i 1).val ∧ (i 1).val < win0_5.index ⟨(i 0).val / 5000, hlt⟩ (1 : Fin 2) * 16 + 16
    rw [e1]; omega

/-- After the region's ten points the result array holds the first layer of the arrays found at entry. -/
theorem final (c : Dev nD) :
    (dat0 (F := Ideal) V c).arrAt 5 cfg0.N
      = Cert.Sage.hidden (V c main_v24) (V c main_arg0) (V c main_arg1) (V c main_arg3)
          (fun q => V c main_v25 (ix2 (0 : Fin 1) q)) :=
  (dat0 (F := Ideal) V c).arrAt_eq_of_cover 5 _ (fun t _ => written_back V c t) rows_covered

end Cert.KernelIdeal.Region0

end
-- ==== Proof.Region1Payload.lean ====
/-
  One row block of the second SAGE layer, entry by entry.

  The body of region 1 receives five blocks: rows of the mean array and of the hidden array (`[5000, 16]` each), the two
  weight matrices (`[16, 64]`) and the bias row (`[1, 64]`). What it stores is, at row `p` and channel `q`,
      (z p q − M p) − log (∑_q' exp (z p q' − M p)),
  where  z p q = (∑ₖ mean[p,k]·Wl[k,q] + ∑ₖ h[p,k]·Wr[k,q]) + b[q]  and  M p  is the maximum of row `p` of `z` folded from -∞.

  The value is cut in two: the logits `z` of the block (two matrix products into zero accumulators, added, plus the bias
  row repeated down the rows; rounding the operands to bf16 changes nothing over the extended reals) and the row-wise
  log-softmax of any block of logits (a row maximum and a row sum, each kept as a column and repeated along the row).
  Each operation that is not entry-by-entry is read at explicit coordinates `(p, q)`: a matrix product as the sum over the
  contracted index, a row reduction as the fold or the sum over the 64 channels, the column forms `[a] → [a, 1] → [a, b]`
  as the entry of row `p`.
-/
import proofs.«158502_j34634616275240_1_alg».proof.Proof.Gen.KernelIdeal.Skeleton
import proofs.«158502_j34634616275240_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.ValueIdx
open Cert.KernelIdeal Cert.KernelIdeal.Gen
open scoped BigOperators

/-- A column `[a]` viewed `[a, 1]` reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index a reduction over the channel axis inserts. -/
theorem lift_row (p : Fin 5000) (k : Fin 64) : reduces_S5000x64_S5000.lift (ix1 p) k = ix2 p k :=
  funext fun a => Fin.ext (by match a with | ⟨0, _⟩ => rfl | ⟨1, _⟩ => rfl)

/-- A row's maximum over the 64 channels, from the accumulator's value. -/
theorem rowMax_at (z : FVec Ideal S5000x64 .f32) (hφ : FKind.Formats .f32)
    (hacc : (0xFF800000#32 : BitVec 32) = 0xFF800000#32) (p : Fin 5000) :
    multiReduction .maximumf [1] S5000 z 0xFF800000#32 reduces_S5000x64_S5000 hφ hacc (ix1 p)
      = Cert.Sage.rowMax (fun q => z (ix2 p q)) := by
  refine (Ideal.multiReduction_maximumf_single z 0xFF800000#32 reduces_S5000x64_S5000 hφ hacc (ix1 p)).trans ?_
  show (Finset.univ : Finset (Fin 64)).fold max (Ideal.ofBits .f32 0xFF800000#32) (fun k => z (reduces_S5000x64_S5000.lift (ix1 p) k))
    = (Finset.univ : Finset (Fin 64)).fold max Cert.Sage.negInf (fun q => z (ix2 p q))
  exact congrArg (fun f => (Finset.univ : Finset (Fin 64)).fold max (Ideal.ofBits .f32 0xFF800000#32) f)
    (funext fun k => congrArg z (lift_row p k))

/-- A row's sum over the 64 channels. -/
theorem rowSum_at (z : FVec Ideal S5000x64 .f32) (hφ : FKind.Formats .f32)
    (hacc : (0x00000000#32 : BitVec 32) = 0x00000000#32) (p : Fin 5000) :
    multiReduction .add [1] S5000 z 0x00000000#32 reduces_S5000x64_S5000 hφ hacc (ix1 p)
      = ∑ q : Fin 64, z (ix2 p q) := by
  refine (Ideal.multiReduction_add_single z 0x00000000#32 reduces_S5000x64_S5000 hφ hacc (ix1 p)).trans ?_
  show ∑ k : Fin 64, z (reduces_S5000x64_S5000.lift (ix1 p) k) = _
  simp only [lift_row]

/-- Where the matrix product reads its operands: row `p` of the left one, column `q` of the right one, along the one
    contracted axis. -/
theorem lhs_dot_0 (i : S5000x64.Idx) (c : dot_S5000x16_S16x64_S5000x64_1_0_0_1_n_n.contr.Idx) :
    (dot_S5000x16_S16x64_S5000x64_1_0_0_1_n_n.lhsIdx i c 0).val = (i 0).val := by
  unfold DotDims.lhsIdx
  rw [dif_neg (show ¬(0 : Fin S5000x16.rank) ∈ dot_S5000x16_S16x64_S5000x64_1_0_0_1_n_n.lhsBatch by decide), dif_pos (show (0 : Fin S5000x16.rank) ∈ dot_S5000x16_S16x64_S5000x64_1_0_0_1_n_n.lhsNonContracting by decide)]
  rfl
theorem lhs_dot_1 (i : S5000x64.Idx) (c : dot_S5000x16_S16x64_S5000x64_1_0_0_1_n_n.contr.Idx) :
    (dot_S5000x16_S16x64_S5000x64_1_0_0_1_n_n.lhsIdx i c 1).val = (c ⟨0, by decide⟩).val :=
  dot_S5000x16_S16x64_S5000x64_1_0_0_1_n_n.lhsIdx_val_of_single rfl i c
theorem rhs_dot_0 (i : S5000x64.Idx) (c : dot_S5000x16_S16x64_S5000x64_1_0_0_1_n_n.contr.Idx) :
    (dot_S5000x16_S16x64_S5000x64_1_0_0_1_n_n.rhsIdx i c 0).val = (c ⟨0, by decide⟩).val :=
  dot_S5000x16_S16x64_S5000x64_1_0_0_1_n_n.rhsIdx_val_of_single rfl i c
theorem rhs_dot_1 (i : S5000x64.Idx) (c : dot_S5000x16_S16x64_S5000x64_1_0_0_1_n_n.contr.Idx) :
    (dot_S5000x16_S16x64_S5000x64_1_0_0_1_n_n.rhsIdx i c 1).val = (i 1).val := by
  unfold DotDims.rhsIdx
  rw [dif_neg (show ¬(1 : Fin S16x64.rank) ∈ dot_S5000x16_S16x64_S5000x64_1_0_0_1_n_n.rhsBatch by decide), dif_pos (show (1 : Fin S16x64.rank) ∈ dot_S5000x16_S16x64_S5000x64_1_0_0_1_n_n.rhsNonContracting by decide)]
  rfl

/-- The matrix product of a `[5000, 16]` block with a `[16, 64]` matrix, into zeros, at `(p, q)`. -/
theorem matmul_at (l : FVec Ideal S5000x16 .bf16) (r : FVec Ideal S16x64 .bf16) (p : Fin 5000) (q : Fin 64) :
    matmul dot_S5000x16_S16x64_S5000x64_1_0_0_1_n_n none l r (constant S5000x64 .f32 0x00000000#32) (ix2 p q)
      = ∑ k : Fin 16, l (ix2 p k) * r (ix2 k q) := by
  simp only [matmul]
  rw [Ideal.matmul_constant_zero_apply, ← Equiv.sum_comp (contrEquiv1 dot_S5000x16_S16x64_S5000x64_1_0_0_1_n_n 16 rfl rfl).symm]
  refine Finset.sum_congr rfl fun k _ => ?_
  have hk := contrEquiv1_symm_val dot_S5000x16_S16x64_S5000x64_1_0_0_1_n_n 16 rfl rfl k
  have el : dot_S5000x16_S16x64_S5000x64_1_0_0_1_n_n.lhsIdx (ix2 p q) ((contrEquiv1 dot_S5000x16_S16x64_S5000x64_1_0_0_1_n_n 16 rfl rfl).symm k) = ix2 p k :=
    funext fun a => Fin.ext (by
      match a with
      | ⟨0, _⟩ => exact lhs_dot_0 _ _
      | ⟨1, _⟩ => exact (lhs_dot_1 _ _).trans hk)
  have er : dot_S5000x16_S16x64_S5000x64_1_0_0_1_n_n.rhsIdx (ix2 p q) ((contrEquiv1 dot_S5000x16_S16x64_S5000x64_1_0_0_1_n_n 16 rfl rfl).symm k) = ix2 k q :=
    funext fun a => Fin.ext (by
      match a with
      | ⟨0, _⟩ => exact (rhs_dot_0 _ _).trans hk
      | ⟨1, _⟩ => exact rhs_dot_1 _ _)
  rw [el, er]

/-- The logits of a row block: the two matrix products (the mean block by the neighbour weights, the hidden block by
    the self weights) added, plus the bias row repeated down the rows. -/
def logits (x0 x1 : Vec Ideal S5000x16 .f32) (x2 x4 : Vec Ideal S16x64 .f32) (x3 : Vec Ideal S1x64 .f32) : FVec Ideal S5000x64 .f32 :=
  addf
    (addf
      (matmul dot_S5000x16_S16x64_S5000x64_1_0_0_1_n_n none
        (truncf .bf16 (shapeCast S5000x16 x0 shapeCasts_S5000x16_S5000x16) bitsLt_bf16_f32 : FVec Ideal S5000x16 .bf16)
        (truncf .bf16 x2 bitsLt_bf16_f32 : FVec Ideal S16x64 .bf16) (constant S5000x64 .f32 0x00000000#32))
      (matmul dot_S5000x16_S16x64_S5000x64_1_0_0_1_n_n none
        (truncf .bf16 (shapeCast S5000x16 x1 shapeCasts_S5000x16_S5000x16) bitsLt_bf16_f32 : FVec Ideal S5000x16 .bf16)
        (truncf .bf16 x4 bitsLt_bf16_f32 : FVec Ideal S16x64 .bf16) (constant S5000x64 .f32 0x00000000#32)))
    (broadcastTo S5000x64 (shapeCast S1x64 x3 shapeCasts_S1x64_S1x64) broadcasts_S1x64_S5000x64)

/-- A row maximum or row sum, kept as a column and repeated along the row. -/
def alongRow (v : FVec Ideal S5000 .f32) : FVec Ideal S5000x64 .f32 :=
  broadcastTo S5000x64 (shapeCast S5000x1 v shapeCasts_S5000_S5000x1) broadcasts_S5000x1_S5000x64

/-- The row-wise log-softmax of a block of logits as the body forms it. -/
def logSoftmaxBlock (z : FVec Ideal S5000x64 .f32) : FVec Ideal S5000x64 .f32 :=
  subf
    (subf z (alongRow (multiReduction .maximumf [1] S5000 z 0xFF800000#32 reduces_S5000x64_S5000 (.inl rfl) rfl)))
    (broadcastTo S5000x64
      (log (shapeCast S5000x1
        (multiReduction .add [1] S5000
          (exp (subf z (alongRow (multiReduction .maximumf [1] S5000 z 0xFF800000#32 reduces_S5000x64_S5000 (.inl rfl) rfl))))
          0x00000000#32 reduces_S5000x64_S5000 (.inl rfl) rfl)
        shapeCasts_S5000_S5000x1))
      broadcasts_S5000x1_S5000x64)

/-- The body's stored value is the log-softmax of the logits. -/
theorem pay_eq (x0 x1 : Vec Ideal S5000x16 .f32) (x2 x4 : Vec Ideal S16x64 .f32) (x3 : Vec Ideal S1x64 .f32) :
    k1_pay1 (F := Ideal) x0 x1 x2 x4 x3 = logSoftmaxBlock (logits x0 x1 x2 x4 x3) := rfl

/-- The logits at row `p`, channel `q`: rounding to bf16 is the identity on the extended reals. -/
theorem logits_at (x0 x1 : Vec Ideal S5000x16 .f32) (x2 x4 : Vec Ideal S16x64 .f32) (x3 : Vec Ideal S1x64 .f32)
    (p : Fin 5000) (q : Fin 64) :
    logits x0 x1 x2 x4 x3 (ix2 p q)
      = ((∑ k : Fin 16, x0 (ix2 p k) * x2 (ix2 k q)) + ∑ k : Fin 16, x1 (ix2 p k) * x4 (ix2 k q)) + x3 (ix2 (0 : Fin 1) q) := by
  unfold logits
  rw [addf_apply, addf_apply, matmul_at, matmul_at, shapeCast_self, shapeCast_self, shapeCast_self, broadcastTo_1b_ab_apply]
  rfl

/-- A row quantity kept as a column and repeated along the row reads, at `(p, q)`, the quantity of row `p`. -/
theorem alongRow_at (v : FVec Ideal S5000 .f32) (p : Fin 5000) (q : Fin 64) : alongRow v (ix2 p q) = v (ix1 p) := by
  unfold alongRow
  rw [broadcastTo_a1_ab_apply, shapeCast_a_a1_apply]

/-- The body's log-softmax at row `p`, channel `q`, is the specification's of row `p` of the logits. -/
theorem logSoftmaxBlock_at (z : FVec Ideal S5000x64 .f32) (p : Fin 5000) (q : Fin 64) :
    logSoftmaxBlock z (ix2 p q) = Cert.Sage.logSoftmaxRow (fun q' => z (ix2 p q')) q := by
  have hM : ∀ q' : Fin 64, subf z (alongRow (multiReduction .maximumf [1] S5000 z 0xFF800000#32 reduces_S5000x64_S5000 (.inl rfl) rfl)) (ix2 p q')
      = z (ix2 p q') - Cert.Sage.rowMax (fun q'' => z (ix2 p q'')) := fun q' => by
    rw [subf_apply, alongRow_at, rowMax_at]
  unfold logSoftmaxBlock
  rw [subf_apply, hM, broadcastTo_a1_ab_apply]
  show _ - Ideal.log (shapeCast S5000x1 _ shapeCasts_S5000_S5000x1 (ix2 p (0 : Fin 1))) = _
  rw [shapeCast_a_a1_apply, rowSum_at]
  unfold Cert.Sage.logSoftmaxRow
  refine congrArg (fun s => (z (ix2 p q) - Cert.Sage.rowMax (fun q'' => z (ix2 p q''))) - Ideal.log s) ?_
  refine Finset.sum_congr rfl fun k _ => ?_
  show Ideal.exp (subf z _ (ix2 p k)) = _
  rw [hM]

/-- THE BODY'S STORED VALUE at row `p`, channel `q` of the block. -/
theorem pay_at (x0 x1 : Vec Ideal S5000x16 .f32) (x2 x4 : Vec Ideal S16x64 .f32) (x3 : Vec Ideal S1x64 .f32)
    (p : Fin 5000) (q : Fin 64) :
    k1_pay1 (F := Ideal) x0 x1 x2 x4 x3 (ix2 p q)
      = Cert.Sage.logSoftmaxRow (fun q' => ((∑ k : Fin 16, x0 (ix2 p k) * x2 (ix2 k q')) + ∑ k : Fin 16, x1 (ix2 p k) * x4 (ix2 k q')) + x3 (ix2 (0 : Fin 1) q')) q := by
  rw [pay_eq, logSoftmaxBlock_at]
  exact congrArg (fun f => Cert.Sage.logSoftmaxRow f q) (funext fun q' => logits_at x0 x1 x2 x4 x3 p q')

end Cert.KernelIdeal.Region1

end
-- ==== Proof.Region1.lean ====
/-
  Region 1 of the kernel program (the second SAGE layer and the row-wise log-softmax) as ONE function of the arrays it
  finds at entry.

  Point `t` of the ten reads rows `5000 t … 5000 t + 4999` of the mean array and of the hidden array, the whole of the two
  weight matrices and of the bias row, and writes the same rows of the result. With
      z p q = (∑ₖ mean[p,k]·Wl[k,q] + ∑ₖ h[p,k]·Wr[k,q]) + b[q]      and      M p = the maximum over q of z p q (from -∞),
  row `p`, channel `q` of what it writes is `(z p q − M p) − log (∑_q' exp (z p q' − M p))`. The ten row blocks tile
  the `[50000, 64]` result, so the whole array ends at that function.
-/
import proofs.«158502_j34634616275240_1_alg».proof.Proof.Gen.KernelIdeal.Frame
import proofs.«158502_j34634616275240_1_alg».proof.Proof.Spec
import proofs.«158502_j34634616275240_1_alg».proof.Proof.Region1Payload
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, however spelt. -/
theorem zeros2 : (![0, 0] : Fin 2 → Nat) = fun _ => 0 := funext fun a => by fin_cases a <;> rfl

/-- The block indices at point `t`, decided over the ten points: the mean, the hidden and the result windows are at
    row block `t`; the weight matrices and the bias row are whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the mean block at point `t` is row `5000 t + p` of the mean array. -/
theorem mean_rows (c : Dev nD) (t : Fin cfg1.N) (p : Fin 5000) (k : Fin 16) (r : Fin 50000) (hr : r.val = t.val * 5000 + p.val) :
    (iblk1 V c 0 t : Vec Ideal S5000x16 .f32) (ix2 p k) = (V c main_v38 : S50000x16.Idx → EReal) (ix2 r k) := by
  obtain ⟨e0, e1, -⟩ := idx_facts t
  unfold iblk1
  rw [View.read_apply]
  show V c main_v38 _ = V c main_v38 _
  refine congrArg (V c main_v38) (funext fun a => Fin.ext ?_)
  match a with
  | ⟨0, _⟩ => show win1_0.index t (0 : Fin 2) * 5000 + 1 * p.val = r.val; rw [e0, hr]; omega
  | ⟨1, _⟩ => show win1_0.index t (1 : Fin 2) * 16 + 1 * k.val = k.val; rw [e1]; omega

/-- Row `p` of the hidden block at point `t` is row `5000 t + p` of the hidden array. -/
theorem hidden_rows (c : Dev nD) (t : Fin cfg1.N) (p : Fin 5000) (k : Fin 16) (r : Fin 50000) (hr : r.val = t.val * 5000 + p.val) :
    (iblk1 V c 1 t : Vec Ideal S5000x16 .f32) (ix2 p k) = (V c main_v26 : S50000x16.Idx → EReal) (ix2 r k) := by
  obtain ⟨-, -, e0, e1, -⟩ := idx_facts t
  unfold iblk1
  rw [View.read_apply]
  show V c main_v26 _ = V c main_v26 _
  refine congrArg (V c main_v26) (funext fun a => Fin.ext ?_)
  match a with
  | ⟨0, _⟩ => show win1_1.index t (0 : Fin 2) * 5000 + 1 * p.val = r.val; rw [e0, hr]; omega
  | ⟨1, _⟩ => show win1_1.index t (1 : Fin 2) * 16 + 1 * k.val = k.val; rw [e1]; omega

/-- The neighbour weights' block is the whole matrix at every point. -/
theorem wl_whole (c : Dev nD) (t : Fin cfg1.N) (k : Fin 16) (q : Fin 64) :
    (iblk1 V c 2 t : Vec Ideal S16x64 .f32) (ix2 k q) = (V c main_arg4 : S16x64.Idx → EReal) (ix2 k q) := by
  obtain ⟨-, -, -, -, e0, e1, -⟩ := idx_facts t
  unfold iblk1
  rw [View.read_apply]
  show V c main_arg4 _ = V c main_arg4 _
  refine congrArg (V c main_arg4) (funext fun a => Fin.ext ?_)
  match a with
  | ⟨0, _⟩ => show win1_2.index t (0 : Fin 2) * 16 + 1 * k.val = k.val; rw [e0]; omega
  | ⟨1, _⟩ => show win1_2.index t (1 : Fin 2) * 64 + 1 * q.val = q.val; rw [e1]; omega

/-- The bias row's block is the whole row at every point. -/
theorem bias_whole (c : Dev nD) (t : Fin cfg1.N) (q : Fin 64) :
    (iblk1 V c 3 t : Vec Ideal S1x64 .f32) (ix2 (0 : Fin 1) q) = (V c main_v39 : S1x64.Idx → EReal) (ix2 (0 : Fin 1) q) := by
  obtain ⟨-, -, -, -, -, -, e0, e1, -⟩ := idx_facts t
  unfold iblk1
  rw [View.read_apply]
  show V c main_v39 _ = V c main_v39 _
  refine congrArg (V c main_v39) (funext fun a => Fin.ext ?_)
  match a with
  | ⟨0, _⟩ => show win1_3.index t (0 : Fin 2) * 1 + 1 * 0 = 0; rw [e0]
  | ⟨1, _⟩ => show win1_3.index t (1 : Fin 2) * 64 + 1 * q.val = q.val; rw [e1]; omega

/-- The self weights' block is the whole matrix at every point. -/
theorem wr_whole (c : Dev nD) (t : Fin cfg1.N) (k : Fin 16) (q : Fin 64) :
    (iblk1 V c 4 t : Vec Ideal S16x64 .f32) (ix2 k q) = (V c main_arg6 : S16x64.Idx → EReal) (ix2 k q) := by
  obtain ⟨-, -, -, -, -, -, -, -, e0, e1, -⟩ := idx_facts t
  unfold iblk1
  rw [View.read_apply]
  show V c main_arg6 _ = V c main_arg6 _
  refine congrArg (V c main_arg6) (funext fun a => Fin.ext ?_)
  match a with
  | ⟨0, _⟩ => show win1_4.index t (0 : Fin 2) * 16 + 1 * k.val = k.val; rw [e0]; omega
  | ⟨1, _⟩ => show win1_4.index t (1 : Fin 2) * 64 + 1 * q.val = q.val; rw [e1]; omega

/-- The specification's result at an index whose row is `r` and whose channel is `q`. -/
theorem output_at (mean h : Cert.Sage.Mat 50000 16) (Wl Wr : Cert.Sage.Mat 16 64) (b : Fin 64 → EReal)
    (i : S50000x64.Idx) (r : Fin 50000) (q : Fin 64) (h0 : (i 0).val = r.val) (h1 : (i 1).val = q.val) :
    Cert.Sage.output mean h Wl Wr b i = Cert.Sage.logSoftmaxRow (fun q' => Cert.Sage.lin 16 64 mean h Wl Wr b r q') q := by
  obtain rfl : i = ix2 r q := funext fun a => Fin.ext (by
    match a with
    | ⟨0, _⟩ => exact h0
    | ⟨1, _⟩ => exact h1)
  rfl

/-- WHAT POINT `t` WRITES BACK is rows `5000 t … 5000 t + 4999` of the specification's result. -/
theorem flushed_eq (c : Dev nD) (t : Fin cfg1.N) :
    (dat1 (F := Ideal) V c).flushed 5 t
      = ((cfg1.win 5).blk t).view.read (Elt Ideal)
          (Cert.Sage.output (V c main_v38) (V c main_v26) (V c main_arg4) (V c main_arg6)
            (fun q => V c main_v39 (ix2 (0 : Fin 1) q))) := by
  show (cfg1.win 5).cut (grid1.coords t) ((dat1 V c).after 5 t) = _
  rw [after1_5]
  unfold out1_5
  rw [View.canon_unit_zero zeros2]
  simp only [View.ld_unit_zero (S := S5000x16) zeros2, View.ld_unit_zero (S := S16x64) zeros2, View.ld_unit_zero (S := S1x64) zeros2]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = Cert.Sage.output (V c main_v38) (V c main_v26) (V c main_arg4) (V c main_arg6)
        (fun q => V c main_v39 (ix2 (0 : Fin 1) q)) (((cfg1.win 5).blk t).view.emb (ix2 p q))
  have hp : p.val < 5000 := p.isLt
  have hN : grid1.N = 10 := N_1
  have ht : t.val < grid1.N := t.isLt
  obtain ⟨-, -, -, -, -, -, -, -, -, -, e0, e1⟩ := idx_facts t
  refine (pay_at (iblk1 V c 0 t) (iblk1 V c 1 t) (iblk1 V c 2 t) (iblk1 V c 4 t) (iblk1 V c 3 t) p q).trans ?_
  refine Eq.symm ((output_at _ _ _ _ _ _ ⟨t.val * 5000 + p.val, by omega⟩ q ?_ ?_).trans ?_)
  · show win1_5.index t (0 : Fin 2) * 5000 + 1 * p.val = t.val * 5000 + p.val
    rw [e0]; omega
  · show win1_5.index t (1 : Fin 2) * 64 + 1 * q.val = q.val
    rw [e1]; omega
  refine congrArg (fun f => Cert.Sage.logSoftmaxRow f q) (funext fun q' => ?_)
  unfold Cert.Sage.lin
  rw [bias_whole V c t q']
  refine congrArg₂ (fun a b => (a + b) + (V c main_v39 : S1x64.Idx → EReal) (ix2 (0 : Fin 1) q')) ?_ ?_
  · exact Finset.sum_congr rfl fun k _ => by rw [mean_rows V c t p k ⟨t.val * 5000 + p.val, by omega⟩ rfl, wl_whole V c t k q']
  · exact Finset.sum_congr rfl fun k _ => by rw [hidden_rows V c t p k ⟨t.val * 5000 + p.val, by omega⟩ rfl, wr_whole V c t k q']

/-- An index of the result array is in point `t`'s block iff each coordinate is in the block's range on its axis. -/
theorem mem_blk (t : Fin cfg1.N) (i : S50000x64.Idx) :
    i ∈ ((cfg1.win 5).blk t).view.set
      ↔ ∀ a : Fin 2, win1_5.index t a * S5000x64.size a ≤ (i a).val ∧ (i a).val < win1_5.index t a * S5000x64.size a + S5000x64.size a := by
  show i ∈ ((View.whole main_v40).slice (win1_5.rect t)).set ↔ _
  rw [View.set_slice_whole, Rect.mem_set_unit]
  exact Iff.rfl

/-- The ten row blocks tile the result: row `r` is in the block of point `r / 5000`. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : grid1.N = 10 := N_1
  have hlt : (i 0).val / 5000 < grid1.N := by omega
  obtain ⟨-, -, -, -, -, -, -, -, -, -, e0, e1⟩ := idx_facts ⟨(i 0).val / 5000, hlt⟩
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ (1 : Fin 2) * 64 ≤ (i 1).val
      ∧ (i 1).val < win1_5.index ⟨(i 0).val / 5000, hlt⟩ (1 : Fin 2) * 64 + 64
    rw [e1]
    omega

/-- After the region's ten points the result array holds the second layer, log-softmaxed row by row, of the arrays
    found at entry. -/
theorem final (c : Dev nD) :
    (dat1 (F := Ideal) V c).arrAt 5 cfg1.N
      = Cert.Sage.output (V c main_v38) (V c main_v26) (V c main_arg4) (V c main_arg6)
          (fun q => V c main_v39 (ix2 (0 : Fin 1) q)) :=
  (dat1 (F := Ideal) V c).arrAt_eq_of_cover 5 _ (fun t _ => flushed_eq V c t) cover

end Cert.KernelIdeal.Region1

end
-- ==== Proof.KernelValue.lean ====
/-
  The kernel program's result as ONE function of its argument arrays: the network of Spec.lean over the shared edge
  aggregation.

  The result buffer ends at what the second region's ten write-backs leave: the second layer, log-softmaxed row by row, of the
  arrays that region finds. Those are the second mean (the host operations between the regions, read from what the first
  region left), the hidden array (the first region's result, untouched in between), the second layer's weights (arguments no
  operation writes) and its bias as a row. The hidden array is the first layer of the arrays the first region finds: the first
  mean (the host operations before it), `x`, the first layer's weights and its bias as a row. Each mean is the aggregated
  array times the broadcast reciprocal of `max deg 1`: the network's mean.
-/
import proofs.«158502_j34634616275240_1_alg».proof.Proof.KernelRun
import proofs.«158502_j34634616275240_1_alg».proof.Proof.KernelHost
import proofs.«158502_j34634616275240_1_alg».proof.Proof.Region0
import proofs.«158502_j34634616275240_1_alg».proof.Proof.Region1
import Idealize.ShloMosaic.Lib.ValueLayout

noncomputable section

namespace Cert.KernelIdeal.Value

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- The hidden array, from the launch contents of core `c`'s buffers. -/
def hid (c : Dev nD) : Cert.Sage.Mat 50000 16 :=
  Cert.Sage.hidden (Cert.Sage.meanOf 128 (Cert.Chain.agg128 (W0 m ρ c (Proc.devRef .tc main_arg7)) (W0 m ρ c (Proc.devRef .tc main_arg0))) (Cert.Chain.deg (W0 m ρ c (Proc.devRef .tc main_arg7))))
    (W0 m ρ c (Proc.devRef .tc main_arg0)) (W0 m ρ c (Proc.devRef .tc main_arg1)) (W0 m ρ c (Proc.devRef .tc main_arg3)) (fun q => (W0 m ρ c (Proc.devRef .tc main_arg2)) (ix1 q))

/-! ## The first region's entry and exit -/

theorem entry0_mean (c : Dev nD) : V1 m ρ c main_v24
    = Cert.Sage.meanOf 128 (Cert.Chain.agg128 (W0 m ρ c (Proc.devRef .tc main_arg7)) (W0 m ρ c (Proc.devRef .tc main_arg0))) (Cert.Chain.deg (W0 m ρ c (Proc.devRef .tc main_arg7))) :=
  (HostStages.first_mean (W0 m ρ c)).trans
    ((Mean.mean128_eq _ _).trans (by rw [Cert.ChainK.agg128_eq, Cert.ChainK.deg_eq]))

theorem entry0_x (c : Dev nD) : V1 m ρ c main_arg0 = (W0 m ρ c (Proc.devRef .tc main_arg0)) := HostStages.keep0_main_arg0 (W0 m ρ c)
theorem entry0_Wl (c : Dev nD) : V1 m ρ c main_arg1 = (W0 m ρ c (Proc.devRef .tc main_arg1)) := HostStages.keep0_main_arg1 (W0 m ρ c)
theorem entry0_Wr (c : Dev nD) : V1 m ρ c main_arg3 = (W0 m ρ c (Proc.devRef .tc main_arg3)) := HostStages.keep0_main_arg3 (W0 m ρ c)

theorem entry0_bias (c : Dev nD) : (fun q : Fin 16 => V1 m ρ c main_v25 (ix2 (0 : Fin 1) q)) = fun q => (W0 m ρ c (Proc.devRef .tc main_arg2)) (ix1 q) := by
  funext q
  rw [show V1 m ρ c main_v25 = shapeCast S1x16 (W0 m ρ c (Proc.devRef .tc main_arg2)) shapeCasts_S16_S1x16 from HostStages.first_bias (W0 m ρ c)]
  exact shapeCast_a_1a_apply _ _ 0 q

/-- The first region leaves the hidden array. -/
theorem exit0_hidden (c : Dev nD) : W2 m ρ c (Proc.devRef .tc main_v26) = hid m ρ c :=
  (W2_arr m ρ c 5).trans ((Region0.final (V1 m ρ) c).trans (by
    rw [entry0_mean, entry0_x, entry0_Wl, entry0_Wr, entry0_bias]; rfl))

/-! ## The second region's entry -/

theorem entry1_hidden (c : Dev nD) : V3 m ρ c main_v26 = hid m ρ c :=
  (HostStages.keep1_main_v26 (W2 m ρ c)).trans (exit0_hidden m ρ c)

theorem mid_src (c : Dev nD) : W2 m ρ c (Proc.devRef .tc main_v1) = Cert.ChainK.src (W0 m ρ c (Proc.devRef .tc main_arg7)) :=
  (W2_of_ne m ρ c main_v1 (by decide)).trans (HostStages.first_src (W0 m ρ c))
theorem mid_dst (c : Dev nD) : W2 m ρ c (Proc.devRef .tc main_v3) = Cert.ChainK.dst (W0 m ρ c (Proc.devRef .tc main_arg7)) :=
  (W2_of_ne m ρ c main_v3 (by decide)).trans (HostStages.first_dst (W0 m ρ c))
theorem mid_invDeg (c : Dev nD) : W2 m ρ c (Proc.devRef .tc main_v12) = Mean.invDeg (Cert.ChainK.deg (W0 m ρ c (Proc.devRef .tc main_arg7))) :=
  (W2_of_ne m ρ c main_v12 (by decide)).trans (HostStages.first_invDeg (W0 m ρ c))

theorem entry1_mean (c : Dev nD) : V3 m ρ c main_v38
    = Cert.Sage.meanOf 16 (Cert.Chain.agg16 (W0 m ρ c (Proc.devRef .tc main_arg7)) (hid m ρ c)) (Cert.Chain.deg (W0 m ρ c (Proc.devRef .tc main_arg7))) :=
  (HostStages.second_mean (W2 m ρ c)).trans (by
    rw [mid_src, mid_dst, mid_invDeg, exit0_hidden]
    exact (Mean.mean16_eq (Cert.ChainK.agg16 (W0 m ρ c (Proc.devRef .tc main_arg7)) (hid m ρ c)) (Cert.ChainK.deg (W0 m ρ c (Proc.devRef .tc main_arg7)))).trans
      (by rw [Cert.ChainK.agg16_eq, Cert.ChainK.deg_eq]))

theorem entry1_Wl (c : Dev nD) : V3 m ρ c main_arg4 = (W0 m ρ c (Proc.devRef .tc main_arg4)) :=
  (HostStages.keep1_main_arg4 (W2 m ρ c)).trans ((W2_of_ne m ρ c main_arg4 (by decide)).trans (HostStages.keep0_main_arg4 (W0 m ρ c)))
theorem entry1_Wr (c : Dev nD) : V3 m ρ c main_arg6 = (W0 m ρ c (Proc.devRef .tc main_arg6)) :=
  (HostStages.keep1_main_arg6 (W2 m ρ c)).trans ((W2_of_ne m ρ c main_arg6 (by decide)).trans (HostStages.keep0_main_arg6 (W0 m ρ c)))

theorem entry1_bias (c : Dev nD) : (fun q : Fin 64 => V3 m ρ c main_v39 (ix2 (0 : Fin 1) q)) = fun q => (W0 m ρ c (Proc.devRef .tc main_arg5)) (ix1 q) := by
  funext q
  rw [show V3 m ρ c main_v39 = shapeCast S1x64 (W2 m ρ c (Proc.devRef .tc main_arg5)) shapeCasts_S64_S1x64 from HostStages.second_bias (W2 m ρ c),
    show W2 m ρ c (Proc.devRef .tc main_arg5) = (W0 m ρ c (Proc.devRef .tc main_arg5)) from
      (W2_of_ne m ρ c main_arg5 (by decide)).trans (HostStages.keep0_main_arg5 (W0 m ρ c))]
  exact shapeCast_a_1a_apply _ _ 0 q

/-! ## The result -/

/-- The last boundary's contents of the result buffer: the network of the launch contents. -/
theorem out_eq (c : Dev nD) : W4 m ρ c (Proc.devRef .tc main_v40)
    = Cert.Sage.net (Cert.Chain.agg128 (W0 m ρ c (Proc.devRef .tc main_arg7))) (Cert.Chain.agg16 (W0 m ρ c (Proc.devRef .tc main_arg7))) (Cert.Chain.deg (W0 m ρ c (Proc.devRef .tc main_arg7)))
        (W0 m ρ c (Proc.devRef .tc main_arg0)) (W0 m ρ c (Proc.devRef .tc main_arg1)) (fun q => (W0 m ρ c (Proc.devRef .tc main_arg2)) (ix1 q)) (W0 m ρ c (Proc.devRef .tc main_arg3))
        (W0 m ρ c (Proc.devRef .tc main_arg4)) (fun q => (W0 m ρ c (Proc.devRef .tc main_arg5)) (ix1 q)) (W0 m ρ c (Proc.devRef .tc main_arg6)) :=
  (W4_arr m ρ c 5).trans ((Region1.final (V3 m ρ) c).trans (by
    rw [entry1_mean, entry1_hidden, entry1_Wl, entry1_Wr, entry1_bias]; rfl))

end Cert.KernelIdeal.Value

end
-- ==== Proof.RefLayers.lean ====
/-
  The reference program's host operations, layer by layer, read at an index: each stretch of its operations is one of the
  network's functions of its operand arrays.

  * the mean: a quotient by the broadcast of `max deg 1` is the product with the inverse (the divisor is never zero);
  * the first layer: two `dot_general`s with one contracted axis are plain sums of products, the bias is broadcast along
    the rows, the three terms are added in the order (left product + bias) + right product — the other order of the same
    sum —, and the result is clamped below at zero;
  * the second layer and the log-softmax: the same linear part, then the row maximum (a fold of `max` from -∞, the
    `maximum` with a broadcast -∞ changing nothing), the shift, the exponentials' row sum (from the initial value zero),
    its logarithm, and the final difference.
-/
import proofs.«158502_j34634616275240_1_alg».proof.Proof.Gen.ReferenceIdeal
import proofs.«158502_j34634616275240_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Layers

open Idealize.ShloMosaic Idealize.ShloMosaic.TcCoe Idealize.SL.Sem Idealize.ShloMosaic.ValueIdx
open Cert.ReferenceIdeal Cert.ReferenceIdeal.Gen

/-- The reference's mean over incoming edges, 128 channels: the summed messages divided by `max deg 1`, broadcast along the rows. -/
def mean128 (msg : FVec Ideal S50000x128 .f32) (deg : FVec Ideal S50000 .f32) : FVec Ideal S50000x128 .f32 :=
  Host.divf (F := Ideal) msg
    (broadcastInDim S50000x128 ![0, 1] bcast_S50000x1_S50000x128_0_1
      (broadcastInDim S50000x1 ![0] bcast_S50000_S50000x1_0
        (maximumf deg (broadcastInDim S50000 ![] bcast_S_S50000 (constant (F := Ideal) S_ .f32 0x3F800000#32)))))

/-- The same with 16 channels. -/
def mean16 (msg : FVec Ideal S50000x16 .f32) (deg : FVec Ideal S50000 .f32) : FVec Ideal S50000x16 .f32 :=
  Host.divf (F := Ideal) msg
    (broadcastInDim S50000x16 ![0, 1] bcast_S50000x1_S50000x16_0_1
      (broadcastInDim S50000x1 ![0] bcast_S50000_S50000x1_0
        (maximumf deg (broadcastInDim S50000 ![] bcast_S_S50000 (constant (F := Ideal) S_ .f32 0x3F800000#32)))))

/-- The reference's first layer: (mean·W1l + b1) + x·W1r, clamped below at zero. -/
def layer1 (mean x : FVec Ideal S50000x128 .f32) (Wl : FVec Ideal S128x16 .f32) (b : FVec Ideal S16 .f32)
    (Wr : FVec Ideal S128x16 .f32) : FVec Ideal S50000x16 .f32 :=
  maximumf
    (addf
      (addf (Host.dotGeneral (F := Ideal) dot_S50000x128_S128x16_S50000x16_1_0_0_1_n_n none mean Wl)
        (broadcastInDim S50000x16 ![0, 1] bcast_S1x16_S50000x16_0_1 (broadcastInDim S1x16 ![1] bcast_S16_S1x16_1 b)))
      (Host.dotGeneral (F := Ideal) dot_S50000x128_S128x16_S50000x16_1_0_0_1_n_n none x Wr))
    (broadcastInDim S50000x16 ![] bcast_S_S50000x16 (constant (F := Ideal) S_ .f32 0x00000000#32))

/-- The reference's second linear part: (mean·W2l + b2) + h·W2r. -/
def logits (mean h : FVec Ideal S50000x16 .f32) (Wl : FVec Ideal S16x64 .f32) (b : FVec Ideal S64 .f32)
    (Wr : FVec Ideal S16x64 .f32) : FVec Ideal S50000x64 .f32 :=
  addf
    (addf (Host.dotGeneral (F := Ideal) dot_S50000x16_S16x64_S50000x64_1_0_0_1_n_n none mean Wl)
      (broadcastInDim S50000x64 ![0, 1] bcast_S1x64_S50000x64_0_1 (broadcastInDim S1x64 ![1] bcast_S64_S1x64_1 b)))
    (Host.dotGeneral (F := Ideal) dot_S50000x16_S16x64_S50000x64_1_0_0_1_n_n none h Wr)

/-- The logits less their row maximum. -/
def shifted (z : FVec Ideal S50000x64 .f32) : FVec Ideal S50000x64 .f32 :=
  subf z
    (broadcastInDim S50000x64 ![0, 1] bcast_S50000x1_S50000x64_0_1
      (broadcastInDim S50000x1 ![0] bcast_S50000_S50000x1_0
        (maximumf (broadcastInDim S50000 ![] bcast_S_S50000 (constant (F := Ideal) S_ .f32 0xFF800000#32))
          (Host.reduce FloatOps.maximumf z (constant (F := Ideal) S_ .f32 0xFF800000#32) reducesTo_S50000x64_S50000_d1 h_S_))))

/-- The row-wise log-softmax as the reference spells it. -/
def logSoftmax (z : FVec Ideal S50000x64 .f32) : FVec Ideal S50000x64 .f32 :=
  subf (shifted z)
    (broadcastInDim S50000x64 ![0, 1] bcast_S50000x1_S50000x64_0_1
      (Host.log
        (broadcastInDim S50000x1 ![0] bcast_S50000_S50000x1_0
          (Host.reduceAdd (Host.exp (shifted z)) (constant (F := Ideal) S_ .f32 0x00000000#32) reducesTo_S50000x64_S50000_d1 h_S_))))

/-! ## Layout operations read at coordinates -/

/-- A vector broadcast to a one-wide column, read at row `p`, is its entry `p`. -/
theorem col_apply (y : FVec Ideal S50000 .f32) (p : Fin 50000) (c : Fin 1) :
    broadcastInDim S50000x1 ![0] bcast_S50000_S50000x1_0 y (ix2 p c) = y (ix1 p) :=
  broadcastInDim_apply _ bcast_S50000_S50000x1_0 y (ix2 p c) (ix1 p) (fun a => match a with
    | ⟨0, _⟩ => by show p.val = if (50000 : Nat) = 1 then 0 else p.val; rw [if_neg (by decide)])

/-- A one-wide column broadcast along 128 channels, read at `(p, q)`, is its entry in row `p`. -/
theorem row128_apply (y : FVec Ideal S50000x1 .f32) (p : Fin 50000) (q : Fin 128) :
    broadcastInDim S50000x128 ![0, 1] bcast_S50000x1_S50000x128_0_1 y (ix2 p q) = y (ix2 p (0 : Fin 1)) :=
  broadcastInDim_apply _ bcast_S50000x1_S50000x128_0_1 y (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

/-- The same along 16 channels. -/
theorem row16_apply (y : FVec Ideal S50000x1 .f32) (p : Fin 50000) (q : Fin 16) :
    broadcastInDim S50000x16 ![0, 1] bcast_S50000x1_S50000x16_0_1 y (ix2 p q) = y (ix2 p (0 : Fin 1)) :=
  broadcastInDim_apply _ bcast_S50000x1_S50000x16_0_1 y (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

/-- The same along 64 channels. -/
theorem row64_apply (y : FVec Ideal S50000x1 .f32) (p : Fin 50000) (q : Fin 64) :
    broadcastInDim S50000x64 ![0, 1] bcast_S50000x1_S50000x64_0_1 y (ix2 p q) = y (ix2 p (0 : Fin 1)) :=
  broadcastInDim_apply _ bcast_S50000x1_S50000x64_0_1 y (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

/-- `max deg 1` at node `p`: the constant word is the real one. -/
theorem maxDeg_apply (deg : FVec Ideal S50000 .f32) (p : Fin 50000) :
    maximumf deg (broadcastInDim S50000 ![] bcast_S_S50000 (constant (F := Ideal) S_ .f32 0x3F800000#32)) (ix1 p)
      = max (deg (ix1 p)) 1 := by
  rw [maximumf_apply, broadcastInDim_scalar_apply, constant_apply, Ideal.ofBits_one_f32]

/-- The quotient by the broadcast `max deg 1` is the network's mean. -/
theorem mean128_eq (msg : FVec Ideal S50000x128 .f32) (deg : FVec Ideal S50000 .f32) :
    mean128 msg deg = Cert.Sage.meanOf 128 msg deg := by
  funext j
  obtain ⟨p, q, rfl⟩ : ∃ (p : Fin 50000) (q : Fin 128), j = ix2 p q := ⟨j 0, j 1, eq_ix2 j⟩
  unfold mean128 Cert.Sage.meanOf
  rw [hostDivf_apply]
  refine (congrArg (Ideal.div (msg (ix2 p q)) ·)
    ((row128_apply _ p q).trans ((col_apply _ p 0).trans (maxDeg_apply deg p)))).trans ?_
  exact Cert.Sage.div_max_one _ _

theorem mean16_eq (msg : FVec Ideal S50000x16 .f32) (deg : FVec Ideal S50000 .f32) :
    mean16 msg deg = Cert.Sage.meanOf 16 msg deg := by
  funext j
  obtain ⟨p, q, rfl⟩ : ∃ (p : Fin 50000) (q : Fin 16), j = ix2 p q := ⟨j 0, j 1, eq_ix2 j⟩
  unfold mean16 Cert.Sage.meanOf
  rw [hostDivf_apply]
  refine (congrArg (Ideal.div (msg (ix2 p q)) ·)
    ((row16_apply _ p q).trans ((col_apply _ p 0).trans (maxDeg_apply deg p)))).trans ?_
  exact Cert.Sage.div_max_one _ _

/-! ## A `dot_general` with one contracted axis, and the bias, read at coordinates -/

/-- The left operand's row coordinate is the result's. -/
theorem lhs128_0 (i : S50000x16.Idx) (c : dot_S50000x128_S128x16_S50000x16_1_0_0_1_n_n.contr.Idx) :
    (dot_S50000x128_S128x16_S50000x16_1_0_0_1_n_n.lhsIdx i c 0).val = (i 0).val := by
  unfold DotDims.lhsIdx
  rw [dif_neg (show ¬(0 : Fin S50000x128.rank) ∈ dot_S50000x128_S128x16_S50000x16_1_0_0_1_n_n.lhsBatch by decide), dif_pos (show (0 : Fin S50000x128.rank) ∈ dot_S50000x128_S128x16_S50000x16_1_0_0_1_n_n.lhsNonContracting by decide)]
  rfl
/-- The left operand's column coordinate is the contraction's. -/
theorem lhs128_1 (i : S50000x16.Idx) (c : dot_S50000x128_S128x16_S50000x16_1_0_0_1_n_n.contr.Idx) :
    (dot_S50000x128_S128x16_S50000x16_1_0_0_1_n_n.lhsIdx i c 1).val = (c ⟨0, by decide⟩).val :=
  dot_S50000x128_S128x16_S50000x16_1_0_0_1_n_n.lhsIdx_val_of_single rfl i c
/-- The right operand's row coordinate is the contraction's. -/
theorem rhs128_0 (i : S50000x16.Idx) (c : dot_S50000x128_S128x16_S50000x16_1_0_0_1_n_n.contr.Idx) :
    (dot_S50000x128_S128x16_S50000x16_1_0_0_1_n_n.rhsIdx i c 0).val = (c ⟨0, by decide⟩).val :=
  dot_S50000x128_S128x16_S50000x16_1_0_0_1_n_n.rhsIdx_val_of_single rfl i c
/-- The right operand's column coordinate is the result's. -/
theorem rhs128_1 (i : S50000x16.Idx) (c : dot_S50000x128_S128x16_S50000x16_1_0_0_1_n_n.contr.Idx) :
    (dot_S50000x128_S128x16_S50000x16_1_0_0_1_n_n.rhsIdx i c 1).val = (i 1).val := by
  unfold DotDims.rhsIdx
  rw [dif_neg (show ¬(1 : Fin S128x16.rank) ∈ dot_S50000x128_S128x16_S50000x16_1_0_0_1_n_n.rhsBatch by decide), dif_pos (show (1 : Fin S128x16.rank) ∈ dot_S50000x128_S128x16_S50000x16_1_0_0_1_n_n.rhsNonContracting by decide)]
  rfl

/-- The 128-term contraction at `(p, q)`: row `p` of the left operand against column `q` of the right one. -/
theorem dot128_apply (A : FVec Ideal S50000x128 .f32) (W : FVec Ideal S128x16 .f32) (p : Fin 50000) (q : Fin 16) :
    Host.dotGeneral (F := Ideal) dot_S50000x128_S128x16_S50000x16_1_0_0_1_n_n none A W (ix2 p q) = ∑ k : Fin 128, A (ix2 p k) * W (ix2 k q) := by
  simp only [Host.dotGeneral]
  rw [Ideal.dotGeneral_apply, ← Equiv.sum_comp (contrEquiv1 dot_S50000x128_S128x16_S50000x16_1_0_0_1_n_n 128 rfl rfl).symm]
  refine Finset.sum_congr rfl fun k _ => ?_
  have hk := contrEquiv1_symm_val dot_S50000x128_S128x16_S50000x16_1_0_0_1_n_n 128 rfl rfl k
  have el : dot_S50000x128_S128x16_S50000x16_1_0_0_1_n_n.lhsIdx (ix2 p q) ((contrEquiv1 dot_S50000x128_S128x16_S50000x16_1_0_0_1_n_n 128 rfl rfl).symm k) = ix2 p k := funext fun a => Fin.ext (by
    match a with
    | ⟨0, _⟩ => exact lhs128_0 _ _
    | ⟨1, _⟩ => exact (lhs128_1 _ _).trans hk)
  have er : dot_S50000x128_S128x16_S50000x16_1_0_0_1_n_n.rhsIdx (ix2 p q) ((contrEquiv1 dot_S50000x128_S128x16_S50000x16_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The left operand's row coordinate is the result's. -/
theorem lhs16_0 (i : S50000x64.Idx) (c : dot_S50000x16_S16x64_S50000x64_1_0_0_1_n_n.contr.Idx) :
    (dot_S50000x16_S16x64_S50000x64_1_0_0_1_n_n.lhsIdx i c 0).val = (i 0).val := by
  unfold DotDims.lhsIdx
  rw [dif_neg (show ¬(0 : Fin S50000x16.rank) ∈ dot_S50000x16_S16x64_S50000x64_1_0_0_1_n_n.lhsBatch by decide), dif_pos (show (0 : Fin S50000x16.rank) ∈ dot_S50000x16_S16x64_S50000x64_1_0_0_1_n_n.lhsNonContracting by decide)]
  rfl
/-- The left operand's column coordinate is the contraction's. -/
theorem lhs16_1 (i : S50000x64.Idx) (c : dot_S50000x16_S16x64_S50000x64_1_0_0_1_n_n.contr.Idx) :
    (dot_S50000x16_S16x64_S50000x64_1_0_0_1_n_n.lhsIdx i c 1).val = (c ⟨0, by decide⟩).val :=
  dot_S50000x16_S16x64_S50000x64_1_0_0_1_n_n.lhsIdx_val_of_single rfl i c
/-- The right operand's row coordinate is the contraction's. -/
theorem rhs16_0 (i : S50000x64.Idx) (c : dot_S50000x16_S16x64_S50000x64_1_0_0_1_n_n.contr.Idx) :
    (dot_S50000x16_S16x64_S50000x64_1_0_0_1_n_n.rhsIdx i c 0).val = (c ⟨0, by decide⟩).val :=
  dot_S50000x16_S16x64_S50000x64_1_0_0_1_n_n.rhsIdx_val_of_single rfl i c
/-- The right operand's column coordinate is the result's. -/
theorem rhs16_1 (i : S50000x64.Idx) (c : dot_S50000x16_S16x64_S50000x64_1_0_0_1_n_n.contr.Idx) :
    (dot_S50000x16_S16x64_S50000x64_1_0_0_1_n_n.rhsIdx i c 1).val = (i 1).val := by
  unfold DotDims.rhsIdx
  rw [dif_neg (show ¬(1 : Fin S16x64.rank) ∈ dot_S50000x16_S16x64_S50000x64_1_0_0_1_n_n.rhsBatch by decide), dif_pos (show (1 : Fin S16x64.rank) ∈ dot_S50000x16_S16x64_S50000x64_1_0_0_1_n_n.rhsNonContracting by decide)]
  rfl

/-- The 16-term contraction at `(p, q)`: row `p` of the left operand against column `q` of the right one. -/
theorem dot16_apply (A : FVec Ideal S50000x16 .f32) (W : FVec Ideal S16x64 .f32) (p : Fin 50000) (q : Fin 64) :
    Host.dotGeneral (F := Ideal) dot_S50000x16_S16x64_S50000x64_1_0_0_1_n_n none A W (ix2 p q) = ∑ k : Fin 16, A (ix2 p k) * W (ix2 k q) := by
  simp only [Host.dotGeneral]
  rw [Ideal.dotGeneral_apply, ← Equiv.sum_comp (contrEquiv1 dot_S50000x16_S16x64_S50000x64_1_0_0_1_n_n 16 rfl rfl).symm]
  refine Finset.sum_congr rfl fun k _ => ?_
  have hk := contrEquiv1_symm_val dot_S50000x16_S16x64_S50000x64_1_0_0_1_n_n 16 rfl rfl k
  have el : dot_S50000x16_S16x64_S50000x64_1_0_0_1_n_n.lhsIdx (ix2 p q) ((contrEquiv1 dot_S50000x16_S16x64_S50000x64_1_0_0_1_n_n 16 rfl rfl).symm k) = ix2 p k := funext fun a => Fin.ext (by
    match a with
    | ⟨0, _⟩ => exact lhs16_0 _ _
    | ⟨1, _⟩ => exact (lhs16_1 _ _).trans hk)
  have er : dot_S50000x16_S16x64_S50000x64_1_0_0_1_n_n.rhsIdx (ix2 p q) ((contrEquiv1 dot_S50000x16_S16x64_S50000x64_1_0_0_1_n_n 16 rfl rfl).symm k) = ix2 k q := funext fun a => Fin.ext (by
    match a with
    | ⟨0, _⟩ => exact (rhs16_0 _ _).trans hk
    | ⟨1, _⟩ => exact rhs16_1 _ _)
  rw [el, er]

/-- The bias broadcast along the rows, read at `(p, q)`, is its entry `q`. -/
theorem bias16_apply (b : FVec Ideal S16 .f32) (p : Fin 50000) (q : Fin 16) :
    broadcastInDim S50000x16 ![0, 1] bcast_S1x16_S50000x16_0_1 (broadcastInDim S1x16 ![1] bcast_S16_S1x16_1 b) (ix2 p q)
      = b (ix1 q) := by
  refine (broadcastInDim_apply _ bcast_S1x16_S50000x16_0_1 _ (ix2 p q) (ix2 (0 : Fin 1) q) (fun a => match a with
    | ⟨0, _⟩ => by show 0 = if (1 : Nat) = 1 then 0 else p.val; rw [if_pos rfl]
    | ⟨1, _⟩ => by show q.val = if (16 : Nat) = 1 then 0 else q.val; rw [if_neg (by decide)])).trans ?_
  exact broadcastInDim_apply _ bcast_S16_S1x16_1 b (ix2 (0 : Fin 1) q) (ix1 q) (fun a => match a with
    | ⟨0, _⟩ => by show q.val = if (16 : Nat) = 1 then 0 else q.val; rw [if_neg (by decide)])

/-- The bias broadcast along the rows, read at `(p, q)`, is its entry `q`. -/
theorem bias64_apply (b : FVec Ideal S64 .f32) (p : Fin 50000) (q : Fin 64) :
    broadcastInDim S50000x64 ![0, 1] bcast_S1x64_S50000x64_0_1 (broadcastInDim S1x64 ![1] bcast_S64_S1x64_1 b) (ix2 p q)
      = b (ix1 q) := by
  refine (broadcastInDim_apply _ bcast_S1x64_S50000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The first layer at `(p, q)`, its three terms in the order the reference adds them. -/
theorem layer1_apply (mean x : FVec Ideal S50000x128 .f32) (Wl : FVec Ideal S128x16 .f32) (b : FVec Ideal S16 .f32)
    (Wr : FVec Ideal S128x16 .f32) (p : Fin 50000) (q : Fin 16) :
    layer1 mean x Wl b Wr (ix2 p q)
      = max (((∑ k : Fin 128, mean (ix2 p k) * Wl (ix2 k q)) + b (ix1 q)) + ∑ k : Fin 128, x (ix2 p k) * Wr (ix2 k q)) 0 := by
  unfold layer1
  rw [maximumf_apply, addf_apply, addf_apply, dot128_apply, dot128_apply, bias16_apply, broadcastInDim_scalar_apply,
    constant_apply, Ideal.ofBits_zero_f32]

/-- The reference's first layer is the network's. -/
theorem layer1_eq (mean x : FVec Ideal S50000x128 .f32) (Wl : FVec Ideal S128x16 .f32) (b : FVec Ideal S16 .f32)
    (Wr : FVec Ideal S128x16 .f32) :
    layer1 mean x Wl b Wr = Cert.Sage.hidden mean x Wl Wr (fun q => b (ix1 q)) := by
  funext j
  obtain ⟨p, q, rfl⟩ : ∃ (p : Fin 50000) (q : Fin 16), j = ix2 p q := ⟨j 0, j 1, eq_ix2 j⟩
  rw [layer1_apply, Cert.Sage.add_right_comm']
  rfl

/-! ## The second linear part, the row maximum and the row sum read at coordinates -/

/-- The logits at `(p, q)`, the three terms in the order the reference adds them. -/
theorem logits_apply (mean h : FVec Ideal S50000x16 .f32) (Wl : FVec Ideal S16x64 .f32) (b : FVec Ideal S64 .f32)
    (Wr : FVec Ideal S16x64 .f32) (p : Fin 50000) (q : Fin 64) :
    logits mean h Wl b Wr (ix2 p q)
      = ((∑ k : Fin 16, mean (ix2 p k) * Wl (ix2 k q)) + b (ix1 q)) + ∑ k : Fin 16, h (ix2 p k) * Wr (ix2 k q) := by
  unfold logits
  rw [addf_apply, addf_apply, dot16_apply, dot16_apply, bias64_apply]

/-- Dropping the channel axis of a `[50000, 64]` array leaves the nodes: proved on the literal shapes. -/
theorem reduces64 : S50000x64.Reduces [1] S50000 := by decide

/-- Node `p` with the channel `k` put back on the dropped axis is `(p, k)`. -/
theorem lift64 (p : Fin 50000) (k : Fin (S50000x64.size 1)) :
    reduces64.lift (ix1 p) k = ix2 p (⟨k.val, k.isLt⟩ : Fin 64) := by
  funext c; apply Fin.ext
  match c with
  | ⟨0, _⟩ => rfl
  | ⟨1, _⟩ => rfl

/-- The host's `reduce` with a maximum body along the channels, at node `p`, is the row's maximum folded from -∞. -/
theorem rowMaxHost_apply (z : FVec Ideal S50000x64 .f32) (p : Fin 50000) :
    Host.reduce FloatOps.maximumf z (constant (F := Ideal) S_ .f32 0xFF800000#32) reducesTo_S50000x64_S50000_d1 h_S_ (ix1 p)
      = Cert.Sage.rowMax (fun k => z (ix2 p k)) := by
  rw [Host.reduce_eq_fold_single FloatOps.maximumf z _ reducesTo_S50000x64_S50000_d1 reduces64 h_S_]
  have hf : (z ∘ reduces64.lift (ix1 p)) = fun k : Fin 64 => z (ix2 p k) := funext fun k => congrArg z (lift64 p k)
  exact congrArg (fun f => Finset.fold max (Ideal.ofBits .f32 0xFF800000#32) f (Finset.univ : Finset (Fin 64))) hf

/-- The host's float sum along the channels from the initial value zero, at node `p`, is the row's sum. -/
theorem rowSumHost_apply (y : FVec Ideal S50000x64 .f32) (p : Fin 50000) :
    Host.reduceAdd y (constant (F := Ideal) S_ .f32 0x00000000#32) reducesTo_S50000x64_S50000_d1 h_S_ (ix1 p)
      = ∑ k : Fin 64, y (ix2 p k) := by
  rw [hostReduceAdd_apply, Ideal.hostReduceAdd_single reducesTo_S50000x64_S50000_d1 reduces64, constant_apply,
    Ideal.ofBits_zero_f32, zero_add]
  exact Finset.sum_congr rfl fun k _ => congrArg y (lift64 p k)

/-- The shifted logits at `(p, q)`: the maximum with the broadcast -∞ changes nothing. -/
theorem shifted_apply (z : FVec Ideal S50000x64 .f32) (p : Fin 50000) (q : Fin 64) :
    shifted z (ix2 p q) = z (ix2 p q) - Cert.Sage.rowMax (fun k => z (ix2 p k)) := by
  unfold shifted
  rw [subf_apply, row64_apply, col_apply, maximumf_apply, broadcastInDim_scalar_apply, constant_apply, rowMaxHost_apply]
  exact congrArg (z (ix2 p q) - ·) (Cert.Sage.max_negInf_rowMax _)

/-- The host's logarithm at an index is the extended reals' logarithm of the element. -/
theorem hostLog_apply {s : Shape} (y : FVec Ideal s .f32) (i : s.Idx) : Host.log y i = Ideal.log (y i) := rfl

/-- The host's exponential at an index is the extended reals' exponential of the element. -/
theorem hostExp_apply {s : Shape} (y : FVec Ideal s .f32) (i : s.Idx) : Host.exp y i = Ideal.exp (y i) := rfl

/-- The reference's log-softmax at `(p, q)` is the network's log-softmax of row `p`. -/
theorem logSoftmax_apply (z : FVec Ideal S50000x64 .f32) (p : Fin 50000) (q : Fin 64) :
    logSoftmax z (ix2 p q) = Cert.Sage.logSoftmaxRow (fun k => z (ix2 p k)) q := by
  unfold logSoftmax Cert.Sage.logSoftmaxRow
  rw [subf_apply, row64_apply, hostLog_apply, col_apply, rowSumHost_apply, shifted_apply]
  refine congrArg (fun s => (z (ix2 p q) - Cert.Sage.rowMax (fun k => z (ix2 p k))) - Ideal.log s)
    (Finset.sum_congr rfl fun k _ => ?_)
  rw [hostExp_apply, shifted_apply]

/-- The reference's second layer with its log-softmax is the network's. -/
theorem output_eq (mean h : FVec Ideal S50000x16 .f32) (Wl : FVec Ideal S16x64 .f32) (b : FVec Ideal S64 .f32)
    (Wr : FVec Ideal S16x64 .f32) :
    logSoftmax (logits mean h Wl b Wr) = Cert.Sage.output mean h Wl Wr (fun q => b (ix1 q)) := by
  funext j
  obtain ⟨p, q, rfl⟩ : ∃ (p : Fin 50000) (q : Fin 64), j = ix2 p q := ⟨j 0, j 1, eq_ix2 j⟩
  rw [logSoftmax_apply]
  refine congrArg (fun f => Cert.Sage.logSoftmaxRow f q) (funext fun k => ?_)
  rw [logits_apply, Cert.Sage.add_right_comm']
  rfl

end Cert.ReferenceIdeal.Layers

end
-- ==== Proof.RefRun.lean ====
/-
  The reference program's run, read back stage by stage.

  @main is 88 host operations in a straight line; what one buffer holds after the line is a fold of the operations over the
  launch memory. The line is cut into four stretches, and each stretch is read from ANY buffer contents `W` at its entry:
    A  the edge rows, the wrapped sources, the gather and the scatter-add of `x`, the degrees, and the quotient: the mean of
       the first layer, a function of `x` and the edge list;
    B  the two products, the bias and the clamp at zero: the hidden array, a function of the mean, `x` and the first layer's
       parameters;
    C  the same aggregation of the hidden array: the second mean, a function of the hidden array and the edge list;
    D  the two products and the bias: the second layer's linear part; then, in four short stretches, the row-wise
       log-softmax (the rows' maxima, the maxima against -∞, the shift, and the tail: exponentials, row sums, logarithm,
       difference): the result.
  A buffer that a stretch does not write keeps its contents across it. Composing the readings, the result buffer ends at
  the network's reference spelling of the argument arrays, and the argument arrays end unchanged.
-/
import proofs.«158502_j34634616275240_1_alg».proof.Proof.Gen.ReferenceIdeal
import proofs.«158502_j34634616275240_1_alg».proof.Proof.Chain
import proofs.«158502_j34634616275240_1_alg».proof.Proof.RefLayers
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## The line and its four stretches -/

/-- @main's 88 operations, in order (a called function's operations stand in its call's place). -/
abbrev ops : List (HloOp τ sig (Elt F)) :=
  [ unary main_arg7 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg7 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    binary main_v22 main_arg1 main_v23 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    unary main_arg2 main_v24 (broadcastInDim S1x16 ![1] bcast_S16_S1x16_1 : (⟨S16, .f32⟩ : BufTy).Contents (Elt F) → (⟨S1x16, .f32⟩ : BufTy).Contents (Elt F)),
    unary main_v24 main_v25 (broadcastInDim S50000x16 ![0, 1] bcast_S1x16_S50000x16_0_1 : (⟨S1x16, .f32⟩ : BufTy).Contents (Elt F) → (⟨S50000x16, .f32⟩ : BufTy).Contents (Elt F)),
    binary main_v23 main_v25 main_v26 (addf : (⟨S50000x16, .f32⟩ : BufTy).Contents (Elt F) → (⟨S50000x16, .f32⟩ : BufTy).Contents (Elt F) → (⟨S50000x16, .f32⟩ : BufTy).Contents (Elt F)),
    binary main_arg0 main_arg3 main_v27 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    binary main_v26 main_v27 main_v28 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x16, .f32⟩) main_call0_v0) (broadcastInDim S50000x16 ![] bcast_S_S50000x16),
    TRef.binary (TRef.of (T := ⟨S50000x16, .f32⟩) main_v28) (TRef.of (T := ⟨S50000x16, .f32⟩) main_call0_v0) (TRef.of (T := ⟨S50000x16, .f32⟩) main_v29) maximumf,
    unary main_arg7 main_v30 ((extractStridedSlice S1x800000 ![0, 0] · slices_S2x800000_S1x800000_0_0) : (⟨S2x800000, .i32⟩ : BufTy).Contents (Elt F) → (⟨S1x800000, .i32⟩ : BufTy).Contents (Elt F)),
    reshape main_v30 main_v31 rfl shapeCasts_S1x800000_S800000,
    unary main_arg7 main_v32 ((extractStridedSlice S1x800000 ![1, 0] · slices_S2x800000_S1x800000_1_0) : (⟨S2x800000, .i32⟩ : BufTy).Contents (Elt F) → (⟨S1x800000, .i32⟩ : BufTy).Contents (Elt F)),
    reshape main_v32 main_v33 rfl shapeCasts_S1x800000_S800000,
    nullary main_c_4 (constantI S_ 32 0#32),
    unary main_c_4 main_v34 (broadcastInDim S800000 ![] bcast_S_S800000 : (⟨S_, .i32⟩ : BufTy).Contents (Elt F) → (⟨S800000, .i32⟩ : BufTy).Contents (Elt F)),
    binary main_v31 main_v34 main_v35 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v36 (broadcastInDim S800000 ![] bcast_S_S800000 : (⟨S_, .i32⟩ : BufTy).Contents (Elt F) → (⟨S800000, .i32⟩ : BufTy).Contents (Elt F)),
    binary main_v31 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_v31 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v29 main_v39 main_v40 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    nullary main_cst_6 (constant S_ .f32 0x00000000#32),
    unary main_cst_6 main_v41 (broadcastInDim S50000x16 ![] bcast_S_S50000x16 : (⟨S_, .f32⟩ : BufTy).Contents (Elt F) → (⟨S50000x16, .f32⟩ : BufTy).Contents (Elt F)),
    unary main_v33 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    nullary main_cst_7 (constant S_ .f32 0x3F800000#32),
    unary main_cst_7 main_v44 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v45 (broadcastInDim S50000 ![] bcast_S_S50000 : (⟨S_, .f32⟩ : BufTy).Contents (Elt F) → (⟨S50000, .f32⟩ : BufTy).Contents (Elt F)),
    unary main_v33 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v48 (broadcastInDim S50000 ![] bcast_S_S50000 : (⟨S_, .f32⟩ : BufTy).Contents (Elt F) → (⟨S50000, .f32⟩ : BufTy).Contents (Elt F)),
    binary main_v47 main_v48 main_v49 (maximumf : (⟨S50000, .f32⟩ : BufTy).Contents (Elt F) → (⟨S50000, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    unary main_v50 main_v51 (broadcastInDim S50000x16 ![0, 1] bcast_S50000x1_S50000x16_0_1 : (⟨S50000x1, .f32⟩ : BufTy).Contents (Elt F) → (⟨S50000x16, .f32⟩ : BufTy).Contents (Elt F)),
    binary main_v43 main_v51 main_v52 (Host.divf : (⟨S50000x16, .f32⟩ : BufTy).Contents (Elt F) → (⟨S50000x16, .f32⟩ : BufTy).Contents (Elt F) → (⟨S50000x16, .f32⟩ : BufTy).Contents (Elt F)),
    binary main_v52 main_arg4 main_v53 ((fun l r => Host.dotGeneral dot_S50000x16_S16x64_S50000x64_1_0_0_1_n_n none l r) : (⟨S50000x16, .f32⟩ : BufTy).Contents (Elt F) → (⟨S16x64, .f32⟩ : BufTy).Contents (Elt F) → (⟨S50000x64, .f32⟩ : BufTy).Contents (Elt F)),
    unary main_arg5 main_v54 (broadcastInDim S1x64 ![1] bcast_S64_S1x64_1 : (⟨S64, .f32⟩ : BufTy).Contents (Elt F) → (⟨S1x64, .f32⟩ : BufTy).Contents (Elt F)),
    unary main_v54 main_v55 (broadcastInDim S50000x64 ![0, 1] bcast_S1x64_S50000x64_0_1 : (⟨S1x64, .f32⟩ : BufTy).Contents (Elt F) → (⟨S50000x64, .f32⟩ : BufTy).Contents (Elt F)),
    binary main_v53 main_v55 main_v56 (addf : (⟨S50000x64, .f32⟩ : BufTy).Contents (Elt F) → (⟨S50000x64, .f32⟩ : BufTy).Contents (Elt F) → (⟨S50000x64, .f32⟩ : BufTy).Contents (Elt F)),
    binary main_v29 main_arg6 main_v57 ((fun l r => Host.dotGeneral dot_S50000x16_S16x64_S50000x64_1_0_0_1_n_n none l r) : (⟨S50000x16, .f32⟩ : BufTy).Contents (Elt F) → (⟨S16x64, .f32⟩ : BufTy).Contents (Elt F) → (⟨S50000x64, .f32⟩ : BufTy).Contents (Elt F)),
    binary main_v56 main_v57 main_v58 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0xFF800000#32),
    TRef.binary (TRef.of (T := ⟨S50000x64, .f32⟩) main_v58) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v58) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v59) subf ]

/-- Stretch A: the first layer's mean (29 operations). -/
abbrev opsA : List (HloOp τ sig (Elt F)) :=
  [ unary main_arg7 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg7 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)) ]

/-- Stretch B: the first layer's linear part and its clamp (9 operations). -/
abbrev opsB : List (HloOp τ sig (Elt F)) :=
  [ binary main_v22 main_arg1 main_v23 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    unary main_arg2 main_v24 (broadcastInDim S1x16 ![1] bcast_S16_S1x16_1 : (⟨S16, .f32⟩ : BufTy).Contents (Elt F) → (⟨S1x16, .f32⟩ : BufTy).Contents (Elt F)),
    unary main_v24 main_v25 (broadcastInDim S50000x16 ![0, 1] bcast_S1x16_S50000x16_0_1 : (⟨S1x16, .f32⟩ : BufTy).Contents (Elt F) → (⟨S50000x16, .f32⟩ : BufTy).Contents (Elt F)),
    binary main_v23 main_v25 main_v26 (addf : (⟨S50000x16, .f32⟩ : BufTy).Contents (Elt F) → (⟨S50000x16, .f32⟩ : BufTy).Contents (Elt F) → (⟨S50000x16, .f32⟩ : BufTy).Contents (Elt F)),
    binary main_arg0 main_arg3 main_v27 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    binary main_v26 main_v27 main_v28 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x16, .f32⟩) main_call0_v0) (broadcastInDim S50000x16 ![] bcast_S_S50000x16),
    TRef.binary (TRef.of (T := ⟨S50000x16, .f32⟩) main_v28) (TRef.of (T := ⟨S50000x16, .f32⟩) main_call0_v0) (TRef.of (T := ⟨S50000x16, .f32⟩) main_v29) maximumf ]

/-- Stretch C: the second layer's mean (29 operations). -/
abbrev opsC : List (HloOp τ sig (Elt F)) :=
  [ unary main_arg7 main_v30 ((extractStridedSlice S1x800000 ![0, 0] · slices_S2x800000_S1x800000_0_0) : (⟨S2x800000, .i32⟩ : BufTy).Contents (Elt F) → (⟨S1x800000, .i32⟩ : BufTy).Contents (Elt F)),
    reshape main_v30 main_v31 rfl shapeCasts_S1x800000_S800000,
    unary main_arg7 main_v32 ((extractStridedSlice S1x800000 ![1, 0] · slices_S2x800000_S1x800000_1_0) : (⟨S2x800000, .i32⟩ : BufTy).Contents (Elt F) → (⟨S1x800000, .i32⟩ : BufTy).Contents (Elt F)),
    reshape main_v32 main_v33 rfl shapeCasts_S1x800000_S800000,
    nullary main_c_4 (constantI S_ 32 0#32),
    unary main_c_4 main_v34 (broadcastInDim S800000 ![] bcast_S_S800000 : (⟨S_, .i32⟩ : BufTy).Contents (Elt F) → (⟨S800000, .i32⟩ : BufTy).Contents (Elt F)),
    binary main_v31 main_v34 main_v35 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v36 (broadcastInDim S800000 ![] bcast_S_S800000 : (⟨S_, .i32⟩ : BufTy).Contents (Elt F) → (⟨S800000, .i32⟩ : BufTy).Contents (Elt F)),
    binary main_v31 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_v31 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v29 main_v39 main_v40 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    nullary main_cst_6 (constant S_ .f32 0x00000000#32),
    unary main_cst_6 main_v41 (broadcastInDim S50000x16 ![] bcast_S_S50000x16 : (⟨S_, .f32⟩ : BufTy).Contents (Elt F) → (⟨S50000x16, .f32⟩ : BufTy).Contents (Elt F)),
    unary main_v33 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    nullary main_cst_7 (constant S_ .f32 0x3F800000#32),
    unary main_cst_7 main_v44 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v45 (broadcastInDim S50000 ![] bcast_S_S50000 : (⟨S_, .f32⟩ : BufTy).Contents (Elt F) → (⟨S50000, .f32⟩ : BufTy).Contents (Elt F)),
    unary main_v33 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v48 (broadcastInDim S50000 ![] bcast_S_S50000 : (⟨S_, .f32⟩ : BufTy).Contents (Elt F) → (⟨S50000, .f32⟩ : BufTy).Contents (Elt F)),
    binary main_v47 main_v48 main_v49 (maximumf : (⟨S50000, .f32⟩ : BufTy).Contents (Elt F) → (⟨S50000, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    unary main_v50 main_v51 (broadcastInDim S50000x16 ![0, 1] bcast_S50000x1_S50000x16_0_1 : (⟨S50000x1, .f32⟩ : BufTy).Contents (Elt F) → (⟨S50000x16, .f32⟩ : BufTy).Contents (Elt F)),
    binary main_v43 main_v51 main_v52 (Host.divf : (⟨S50000x16, .f32⟩ : BufTy).Contents (Elt F) → (⟨S50000x16, .f32⟩ : BufTy).Contents (Elt F) → (⟨S50000x16, .f32⟩ : BufTy).Contents (Elt F)) ]

/-- Stretch D: the second layer's linear part (6 operations). -/
abbrev opsD : List (HloOp τ sig (Elt F)) :=
  [ binary main_v52 main_arg4 main_v53 ((fun l r => Host.dotGeneral dot_S50000x16_S16x64_S50000x64_1_0_0_1_n_n none l r) : (⟨S50000x16, .f32⟩ : BufTy).Contents (Elt F) → (⟨S16x64, .f32⟩ : BufTy).Contents (Elt F) → (⟨S50000x64, .f32⟩ : BufTy).Contents (Elt F)),
    unary main_arg5 main_v54 (broadcastInDim S1x64 ![1] bcast_S64_S1x64_1 : (⟨S64, .f32⟩ : BufTy).Contents (Elt F) → (⟨S1x64, .f32⟩ : BufTy).Contents (Elt F)),
    unary main_v54 main_v55 (broadcastInDim S50000x64 ![0, 1] bcast_S1x64_S50000x64_0_1 : (⟨S1x64, .f32⟩ : BufTy).Contents (Elt F) → (⟨S50000x64, .f32⟩ : BufTy).Contents (Elt F)),
    binary main_v53 main_v55 main_v56 (addf : (⟨S50000x64, .f32⟩ : BufTy).Contents (Elt F) → (⟨S50000x64, .f32⟩ : BufTy).Contents (Elt F) → (⟨S50000x64, .f32⟩ : BufTy).Contents (Elt F)),
    binary main_v29 main_arg6 main_v57 ((fun l r => Host.dotGeneral dot_S50000x16_S16x64_S50000x64_1_0_0_1_n_n none l r) : (⟨S50000x16, .f32⟩ : BufTy).Contents (Elt F) → (⟨S16x64, .f32⟩ : BufTy).Contents (Elt F) → (⟨S50000x64, .f32⟩ : BufTy).Contents (Elt F)),
    binary main_v56 main_v57 main_v58 (addf : (⟨S50000x64, .f32⟩ : BufTy).Contents (Elt F) → (⟨S50000x64, .f32⟩ : BufTy).Contents (Elt F) → (⟨S50000x64, .f32⟩ : BufTy).Contents (Elt F)) ]

/-- Stretch E: the rows' maxima (2 operations). -/
abbrev opsE : List (HloOp τ sig (Elt F)) :=
  [ TRef.nullary (TRef.of (T := ⟨S_, .f32⟩) main_call1_cst) (constant S_ .f32 0xFF800000#32),
    TRef.binary (TRef.of (T := ⟨S50000x64, .f32⟩) main_v58) (TRef.of (T := ⟨S_, .f32⟩) main_call1_cst) (TRef.of (T := ⟨S50000, .f32⟩) main_call1_v0) (fun x v => Host.reduce FloatOps.maximumf x v reducesTo_S50000x64_S50000_d1 h_S_) ]

/-- Stretch G: the maxima against -∞ (3 operations). -/
abbrev opsG : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf ]

/-- Stretch H: the shift by the row maximum (3 operations). -/
abbrev opsH : List (HloOp τ sig (Elt F)) :=
  [ TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v58) (TRef.of (T := ⟨S50000x64, .f32⟩) main_call1_v4) (TRef.of (T := ⟨S50000x64, .f32⟩) main_call1_v5) subf ]

/-- Stretch K: the exponentials' row sums, their logarithm and the final difference (7 operations). -/
abbrev opsK : List (HloOp τ sig (Elt F)) :=
  [ TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v59) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The line is its stretches, one after the other. -/
theorem ops_split : (ops : List (HloOp τ sig (Elt F))) = opsA ++ (opsB ++ (opsC ++ (opsD ++ (opsE ++ (opsG ++ (opsH ++ opsK)))))) := rfl

/-- The fold over two stretches in a row is the second stretch's fold over the first's. -/
theorem after_append (a b : List (HloOp τ sig (Elt F))) (W : Valuation τ sig (Elt F)) :
    after (a ++ b) W = after b (after a W) := by
  induction a generalizing W with
  | nil => rfl
  | cons op a ih => rw [List.cons_append, after_cons, after_cons, ih]

/-! ## What each stretch leaves untouched -/

theorem keepA_main_arg0 (W : Valuation τ sig (Elt F)) :
    after (opsA (F := F)) W (Proc.devRef .tc main_arg0) = W (Proc.devRef .tc main_arg0) :=
  StableHlo.after_of_forall_not_mem _ _ (List.forall_iff_forall_mem.mp (by
    simp only [opsA, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepA_main_arg1 (W : Valuation τ sig (Elt F)) :
    after (opsA (F := F)) W (Proc.devRef .tc main_arg1) = W (Proc.devRef .tc main_arg1) :=
  StableHlo.after_of_forall_not_mem _ _ (List.forall_iff_forall_mem.mp (by
    simp only [opsA, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepA_main_arg2 (W : Valuation τ sig (Elt F)) :
    after (opsA (F := F)) W (Proc.devRef .tc main_arg2) = W (Proc.devRef .tc main_arg2) :=
  StableHlo.after_of_forall_not_mem _ _ (List.forall_iff_forall_mem.mp (by
    simp only [opsA, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepA_main_arg3 (W : Valuation τ sig (Elt F)) :
    after (opsA (F := F)) W (Proc.devRef .tc main_arg3) = W (Proc.devRef .tc main_arg3) :=
  StableHlo.after_of_forall_not_mem _ _ (List.forall_iff_forall_mem.mp (by
    simp only [opsA, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepA_main_arg4 (W : Valuation τ sig (Elt F)) :
    after (opsA (F := F)) W (Proc.devRef .tc main_arg4) = W (Proc.devRef .tc main_arg4) :=
  StableHlo.after_of_forall_not_mem _ _ (List.forall_iff_forall_mem.mp (by
    simp only [opsA, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepA_main_arg5 (W : Valuation τ sig (Elt F)) :
    after (opsA (F := F)) W (Proc.devRef .tc main_arg5) = W (Proc.devRef .tc main_arg5) :=
  StableHlo.after_of_forall_not_mem _ _ (List.forall_iff_forall_mem.mp (by
    simp only [opsA, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepA_main_arg6 (W : Valuation τ sig (Elt F)) :
    after (opsA (F := F)) W (Proc.devRef .tc main_arg6) = W (Proc.devRef .tc main_arg6) :=
  StableHlo.after_of_forall_not_mem _ _ (List.forall_iff_forall_mem.mp (by
    simp only [opsA, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepA_main_arg7 (W : Valuation τ sig (Elt F)) :
    after (opsA (F := F)) W (Proc.devRef .tc main_arg7) = W (Proc.devRef .tc main_arg7) :=
  StableHlo.after_of_forall_not_mem _ _ (List.forall_iff_forall_mem.mp (by
    simp only [opsA, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepB_main_arg4 (W : Valuation τ sig (Elt F)) :
    after (opsB (F := F)) W (Proc.devRef .tc main_arg4) = W (Proc.devRef .tc main_arg4) :=
  StableHlo.after_of_forall_not_mem _ _ (List.forall_iff_forall_mem.mp (by
    simp only [opsB, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepB_main_arg5 (W : Valuation τ sig (Elt F)) :
    after (opsB (F := F)) W (Proc.devRef .tc main_arg5) = W (Proc.devRef .tc main_arg5) :=
  StableHlo.after_of_forall_not_mem _ _ (List.forall_iff_forall_mem.mp (by
    simp only [opsB, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepB_main_arg6 (W : Valuation τ sig (Elt F)) :
    after (opsB (F := F)) W (Proc.devRef .tc main_arg6) = W (Proc.devRef .tc main_arg6) :=
  StableHlo.after_of_forall_not_mem _ _ (List.forall_iff_forall_mem.mp (by
    simp only [opsB, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepB_main_arg7 (W : Valuation τ sig (Elt F)) :
    after (opsB (F := F)) W (Proc.devRef .tc main_arg7) = W (Proc.devRef .tc main_arg7) :=
  StableHlo.after_of_forall_not_mem _ _ (List.forall_iff_forall_mem.mp (by
    simp only [opsB, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepC_main_v29 (W : Valuation τ sig (Elt F)) :
    after (opsC (F := F)) W (Proc.devRef .tc main_v29) = W (Proc.devRef .tc main_v29) :=
  StableHlo.after_of_forall_not_mem _ _ (List.forall_iff_forall_mem.mp (by
    simp only [opsC, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepC_main_arg4 (W : Valuation τ sig (Elt F)) :
    after (opsC (F := F)) W (Proc.devRef .tc main_arg4) = W (Proc.devRef .tc main_arg4) :=
  StableHlo.after_of_forall_not_mem _ _ (List.forall_iff_forall_mem.mp (by
    simp only [opsC, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepC_main_arg5 (W : Valuation τ sig (Elt F)) :
    after (opsC (F := F)) W (Proc.devRef .tc main_arg5) = W (Proc.devRef .tc main_arg5) :=
  StableHlo.after_of_forall_not_mem _ _ (List.forall_iff_forall_mem.mp (by
    simp only [opsC, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepC_main_arg6 (W : Valuation τ sig (Elt F)) :
    after (opsC (F := F)) W (Proc.devRef .tc main_arg6) = W (Proc.devRef .tc main_arg6) :=
  StableHlo.after_of_forall_not_mem _ _ (List.forall_iff_forall_mem.mp (by
    simp only [opsC, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keepE_main_v58 (W : Valuation τ sig (Elt F)) :
    after (opsE (F := F)) W (Proc.devRef .tc main_v58) = W (Proc.devRef .tc main_v58) :=
  StableHlo.after_of_forall_not_mem _ _ (List.forall_iff_forall_mem.mp (by
    simp only [opsE, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keepG_main_v58 (W : Valuation τ sig (Elt F)) :
    after (opsG (F := F)) W (Proc.devRef .tc main_v58) = W (Proc.devRef .tc main_v58) :=
  StableHlo.after_of_forall_not_mem _ _ (List.forall_iff_forall_mem.mp (by
    simp only [opsG, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## What each stretch computes (extended reals) -/

section Values

variable (W : Valuation τ sig (Elt Ideal))

/-- Stretch A leaves the first layer's mean: the aggregated `x` over `max deg 1`. -/
theorem stageA : after (opsA (F := Ideal)) W (Proc.devRef .tc main_v22)
    = Layers.mean128 (Cert.Chain.agg128 (W (Proc.devRef .tc main_arg7)) (W (Proc.devRef .tc main_arg0))) (Cert.Chain.deg (W (Proc.devRef .tc main_arg7))) := by
  after_results; rfl

/-- Stretch B leaves the hidden array: the first layer of the mean it finds and of `x`. -/
theorem stageB : after (opsB (F := Ideal)) W (Proc.devRef .tc main_v29)
    = Layers.layer1 (W (Proc.devRef .tc main_v22)) (W (Proc.devRef .tc main_arg0)) (W (Proc.devRef .tc main_arg1)) (W (Proc.devRef .tc main_arg2)) (W (Proc.devRef .tc main_arg3)) := by
  after_results; rfl

/-- Stretch C leaves the second layer's mean: the aggregated hidden array over `max deg 1`. -/
theorem stageC : after (opsC (F := Ideal)) W (Proc.devRef .tc main_v52)
    = Layers.mean16 (Cert.Chain.agg16 (W (Proc.devRef .tc main_arg7)) (W (Proc.devRef .tc main_v29))) (Cert.Chain.deg (W (Proc.devRef .tc main_arg7))) := by
  after_results; rfl

/-- Stretch D leaves the second layer's linear part. -/
theorem stageD : after (opsD (F := Ideal)) W (Proc.devRef .tc main_v58)
    = Layers.logits (W (Proc.devRef .tc main_v52)) (W (Proc.devRef .tc main_v29)) (W (Proc.devRef .tc main_arg4)) (W (Proc.devRef .tc main_arg5)) (W (Proc.devRef .tc main_arg6)) := by
  after_results; rfl

attribute [local irreducible] Host.reduce in
/-- Stretch E leaves the rows' maxima, folded from -∞. (The reduction is kept folded while the two sides are compared: the
    equation never looks inside it.) -/
theorem stageE : after (opsE (F := Ideal)) W (Proc.devRef .tc main_call1_v0)
    = Host.reduce FloatOps.maximumf (W (Proc.devRef .tc main_v58)) (constant (F := Ideal) S_ .f32 0xFF800000#32) reducesTo_S50000x64_S50000_d1 h_S_ := by
  after_results; rfl

/-- Stretch G leaves the maxima against a broadcast -∞. -/
theorem stageG : after (opsG (F := Ideal)) W (Proc.devRef .tc main_call1_v2)
    = maximumf (broadcastInDim S50000 ![] bcast_S_S50000 (constant (F := Ideal) S_ .f32 0xFF800000#32)) (W (Proc.devRef .tc main_call1_v0)) := by
  after_results; rfl

/-- Stretch H leaves the logits less the broadcast maxima. -/
theorem stageH : after (opsH (F := Ideal)) W (Proc.devRef .tc main_call1_v5)
    = (subf (W (Proc.devRef .tc main_v58))
        (broadcastInDim S50000x64 ![0, 1] bcast_S50000x1_S50000x64_0_1
          (broadcastInDim S50000x1 ![0] bcast_S50000_S50000x1_0 (W (Proc.devRef .tc main_call1_v2)))) : FVec Ideal S50000x64 .f32) := by
  after_results; rfl

/-- What follows the shift in the log-softmax: the shifted logits less the logarithm of their exponentials' row sum. -/
def lsmTail (s : FVec Ideal S50000x64 .f32) : FVec Ideal S50000x64 .f32 :=
  subf s
    (broadcastInDim S50000x64 ![0, 1] bcast_S50000x1_S50000x64_0_1
      (Host.log
        (broadcastInDim S50000x1 ![0] bcast_S50000_S50000x1_0
          (Host.reduceAdd (Host.exp s) (constant (F := Ideal) S_ .f32 0x00000000#32) reducesTo_S50000x64_S50000_d1 h_S_))))

/-- Stretch K leaves the result: the tail of the log-softmax of the shifted logits it finds. -/
theorem stageK : after (opsK (F := Ideal)) W (Proc.devRef .tc main_v59) = lsmTail (W (Proc.devRef .tc main_call1_v5)) := by
  after_results; rfl

/-- The log-softmax is its tail after its shift, the shift spelt out. -/
theorem logSoftmax_unfold (z : FVec Ideal S50000x64 .f32) :
    Layers.logSoftmax z
      = lsmTail (subf z
          (broadcastInDim S50000x64 ![0, 1] bcast_S50000x1_S50000x64_0_1
            (broadcastInDim S50000x1 ![0] bcast_S50000_S50000x1_0
              (maximumf (broadcastInDim S50000 ![] bcast_S_S50000 (constant (F := Ideal) S_ .f32 0xFF800000#32))
                (Host.reduce FloatOps.maximumf z (constant (F := Ideal) S_ .f32 0xFF800000#32) reducesTo_S50000x64_S50000_d1 h_S_))))) := rfl

end Values

/-! ## The whole line -/

/-- The hidden array as the reference spells it, from the argument arrays. -/
def hid (x : FVec Ideal S50000x128 .f32) (W1l : FVec Ideal S128x16 .f32) (b1 : FVec Ideal S16 .f32) (W1r : FVec Ideal S128x16 .f32)
    (e : (⟨S2x800000, .i32⟩ : BufTy).Contents (Elt Ideal)) : FVec Ideal S50000x16 .f32 :=
  Layers.layer1 (Layers.mean128 (Cert.Chain.agg128 e x) (Cert.Chain.deg e)) x W1l b1 W1r

/-- The result as the reference spells it, from the argument arrays. -/
def result (x : FVec Ideal S50000x128 .f32) (W1l : FVec Ideal S128x16 .f32) (b1 : FVec Ideal S16 .f32) (W1r : FVec Ideal S128x16 .f32)
    (W2l : FVec Ideal S16x64 .f32) (b2 : FVec Ideal S64 .f32) (W2r : FVec Ideal S16x64 .f32)
    (e : (⟨S2x800000, .i32⟩ : BufTy).Contents (Elt Ideal)) : FVec Ideal S50000x64 .f32 :=
  Layers.logSoftmax (Layers.logits (Layers.mean16 (Cert.Chain.agg16 e (hid x W1l b1 W1r e)) (Cert.Chain.deg e)) (hid x W1l b1 W1r e) W2l b2 W2r)

/-- After the whole line the result buffer holds `result` of the argument buffers' entry contents. -/
theorem value (W : Valuation τ sig (Elt Ideal)) : after (ops (F := Ideal)) W (Proc.devRef .tc main_v59)
    = result (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [ops_split, after_append, after_append, after_append, after_append, after_append, after_append, after_append,
    stageK, stageH, keepG_main_v58, keepE_main_v58, stageG, stageE, stageD, stageC,
    keepC_main_v29, keepC_main_arg4, keepC_main_arg5, keepC_main_arg6,
    stageB, keepB_main_arg4, keepB_main_arg5, keepB_main_arg6, keepB_main_arg7,
    stageA, keepA_main_arg0, keepA_main_arg1, keepA_main_arg2, keepA_main_arg3, keepA_main_arg4, keepA_main_arg5, keepA_main_arg6,
    keepA_main_arg7]
  exact (logSoftmax_unfold _).symm

theorem kept_main_arg0 (W : Valuation τ sig (Elt F)) :
    after (ops (F := F)) W (Proc.devRef .tc main_arg0) = W (Proc.devRef .tc main_arg0) :=
  StableHlo.after_of_forall_not_mem _ _ (List.forall_iff_forall_mem.mp (by
    simp only [ops, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept_main_arg1 (W : Valuation τ sig (Elt F)) :
    after (ops (F := F)) W (Proc.devRef .tc main_arg1) = W (Proc.devRef .tc main_arg1) :=
  StableHlo.after_of_forall_not_mem _ _ (List.forall_iff_forall_mem.mp (by
    simp only [ops, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept_main_arg2 (W : Valuation τ sig (Elt F)) :
    after (ops (F := F)) W (Proc.devRef .tc main_arg2) = W (Proc.devRef .tc main_arg2) :=
  StableHlo.after_of_forall_not_mem _ _ (List.forall_iff_forall_mem.mp (by
    simp only [ops, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept_main_arg3 (W : Valuation τ sig (Elt F)) :
    after (ops (F := F)) W (Proc.devRef .tc main_arg3) = W (Proc.devRef .tc main_arg3) :=
  StableHlo.after_of_forall_not_mem _ _ (List.forall_iff_forall_mem.mp (by
    simp only [ops, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept_main_arg4 (W : Valuation τ sig (Elt F)) :
    after (ops (F := F)) W (Proc.devRef .tc main_arg4) = W (Proc.devRef .tc main_arg4) :=
  StableHlo.after_of_forall_not_mem _ _ (List.forall_iff_forall_mem.mp (by
    simp only [ops, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept_main_arg5 (W : Valuation τ sig (Elt F)) :
    after (ops (F := F)) W (Proc.devRef .tc main_arg5) = W (Proc.devRef .tc main_arg5) :=
  StableHlo.after_of_forall_not_mem _ _ (List.forall_iff_forall_mem.mp (by
    simp only [ops, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept_main_arg6 (W : Valuation τ sig (Elt F)) :
    after (ops (F := F)) W (Proc.devRef .tc main_arg6) = W (Proc.devRef .tc main_arg6) :=
  StableHlo.after_of_forall_not_mem _ _ (List.forall_iff_forall_mem.mp (by
    simp only [ops, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem kept_main_arg7 (W : Valuation τ sig (Elt F)) :
    after (ops (F := F)) W (Proc.devRef .tc main_arg7) = W (Proc.devRef .tc main_arg7) :=
  StableHlo.after_of_forall_not_mem _ _ (List.forall_iff_forall_mem.mp (by
    simp only [ops, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- From any memory with zero counters every weakly fair execution of @main terminates with the result buffer at
    `result` of the argument arrays and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v59).trans (value (launchContents m c)),
      (h c main_arg0).trans (kept_main_arg0 (launchContents m c)),
      (h c main_arg1).trans (kept_main_arg1 (launchContents m c)),
      (h c main_arg2).trans (kept_main_arg2 (launchContents m c)),
      (h c main_arg3).trans (kept_main_arg3 (launchContents m c)),
      (h c main_arg4).trans (kept_main_arg4 (launchContents m c)),
      (h c main_arg5).trans (kept_main_arg5 (launchContents m c)),
      (h c main_arg6).trans (kept_main_arg6 (launchContents m c)),
      (h c main_arg7).trans (kept_main_arg7 (launchContents m c))⟩)
    (run_seq scopedRefs_eq scopedSems_eq defs main (fun _ => ops) main_eq (fun _ => ops_sub) m ρ)

end Cert.ReferenceIdeal.Stages

end
-- ==== Proof.lean ====
/-
  A two-layer GraphSAGE network with mean aggregation and a row-wise log-softmax, as a pair of Pallas kernels among host
  gathers and scatter-adds, against its jnp reference: over the extended reals the two programs compute one function.

  Both programs form, from the edge list, the per-node sums of the neighbours' feature rows and the in-degrees by the same host
  operations (Proof/Chain.lean: never opened). They differ in three places, none of which changes the value:
    * the mean is the sum TIMES the reciprocal `1 / max deg 1` in the kernel program and the sum OVER `max deg 1` in the
      reference; the divisor is at least one, hence not zero, and both are the product with its inverse (Proof/Spec.lean);
    * a layer's three terms are added as (left product + right product) + bias in the kernels and as
      (left product + bias) + right product in the reference: addition of extended reals is commutative and associative;
    * the kernels' matrix products take their operands through a narrower float format and accumulate into zero, and the
      log-softmax's reductions run over a row block at a time: a change of format is the identity, a product into a zero
      accumulator is the plain sum of products, and the ten row blocks tile the arrays.
  No step needs the inputs to be finite, so the precondition is never opened.

  The kernel program's value: Proof/KernelRun.lean (the run with the result buffer named), Proof/Region0.lean and
  Proof/Region1.lean (each region's result array as one function of the arrays it finds), Proof/KernelHost.lean (the host
  operations around the regions), Proof/KernelValue.lean (the composition). The reference's: Proof/RefRun.lean (its run, stage
  by stage) and Proof/RefLayers.lean (each stage read at an index).
-/
import proofs.«158502_j34634616275240_1_alg».proof.Defs
import proofs.«158502_j34634616275240_1_alg».proof.Proof.Gen.Kernel
import proofs.«158502_j34634616275240_1_alg».proof.Proof.Gen.Kernel.Skeleton
import proofs.«158502_j34634616275240_1_alg».proof.Proof.Gen.Kernel.Launch
import proofs.«158502_j34634616275240_1_alg».proof.Proof.Gen.Kernel.Points
import proofs.«158502_j34634616275240_1_alg».proof.Proof.Gen.Kernel.Frame
import proofs.«158502_j34634616275240_1_alg».proof.Proof.Gen.KernelIdeal
import proofs.«158502_j34634616275240_1_alg».proof.Proof.Gen.KernelIdeal.Skeleton
import proofs.«158502_j34634616275240_1_alg».proof.Proof.Gen.KernelIdeal.Launch
import proofs.«158502_j34634616275240_1_alg».proof.Proof.Gen.KernelIdeal.Points
import proofs.«158502_j34634616275240_1_alg».proof.Proof.Gen.KernelIdeal.Frame
import proofs.«158502_j34634616275240_1_alg».proof.Proof.Gen.ReferenceIdeal
import proofs.«158502_j34634616275240_1_alg».proof.Proof.Gen.Pre_finite_inputs
import proofs.«158502_j34634616275240_1_alg».proof.Proof.KernelValue
import proofs.«158502_j34634616275240_1_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's spelling of the result is the network: each stage is one of the network's functions. -/
theorem reference_is_net (x : FVec Ideal Cert.ReferenceIdeal.S50000x128 .f32) (W1l : FVec Ideal Cert.ReferenceIdeal.S128x16 .f32)
    (b1 : FVec Ideal Cert.ReferenceIdeal.S16 .f32) (W1r : FVec Ideal Cert.ReferenceIdeal.S128x16 .f32)
    (W2l : FVec Ideal Cert.ReferenceIdeal.S16x64 .f32) (b2 : FVec Ideal Cert.ReferenceIdeal.S64 .f32)
    (W2r : FVec Ideal Cert.ReferenceIdeal.S16x64 .f32)
    (e : (⟨Cert.ReferenceIdeal.S2x800000, .i32⟩ : BufTy).Contents (Elt Ideal)) :
    Cert.ReferenceIdeal.Stages.result x W1l b1 W1r W2l b2 W2r e
      = Cert.Sage.net (Cert.Chain.agg128 e) (Cert.Chain.agg16 e) (Cert.Chain.deg e) x W1l (fun q => b1 (ix1 q)) W1r
          W2l (fun q => b2 (ix1 q)) W2r := by
  unfold Cert.ReferenceIdeal.Stages.result Cert.ReferenceIdeal.Stages.hid Cert.Sage.net
  rw [Cert.ReferenceIdeal.Layers.output_eq, Cert.ReferenceIdeal.Layers.mean16_eq, Cert.ReferenceIdeal.Layers.layer1_eq,
    Cert.ReferenceIdeal.Layers.mean128_eq]

/-- The word-level kernel program runs, and its arguments end unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Stages.run m ρ)

/-- The idealization rewrote no operation. -/
theorem preserves : Cert.preserves_Kernel_KernelIdeal := trivial

/-- From memories agreeing on the arguments both programs end with the network of the arguments in their result buffers. -/
theorem algebraic : Cert.algebraic_KernelIdeal_ReferenceIdeal := by
  intro m ρ m' ρ' _ hagree
  refine ⟨fun c => Cert.KernelIdeal.Gen.W4 m ρ c (Proc.devRef .tc Cert.KernelIdeal.main_v40), Cert.KernelIdeal.RunValue.run_out m ρ, ?_⟩
  refine (θ_run Cert.ReferenceIdeal.defs _ _).mono (fun _ h c => ⟨(h c).1.trans ?_, (h c).2⟩)
    (Cert.ReferenceIdeal.Stages.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (reference_is_net _ _ _ _ _ _ _ _).trans (Cert.KernelIdeal.Value.out_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
